-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x32 : Shape := ⟨3, ![8192, 64, 32]⟩
abbrev S_ : Shape := ⟨0, ![]⟩

class Facts : Prop where
  bcast_S_S8192x64x32 : S_.BroadcastsInDim S8192x64x32 (![] : Fin 0 → Fin S8192x64x32.rank)
  reducesTo_S8192x64x32_S_d0_1_2 : S8192x64x32.ReducesTo [0, 1, 2] S_
  h_S_ : 0 < S_.numel

variable [Facts]

def fn {F : FTy → Type} [FloatOps F] (main_arg0 : FVec F S8192x64x32 .f32) : IVec S_ 1 :=
  let main_v0 : FVec F S8192x64x32 .f32 := Host.absf main_arg0
  let main_cst : FVec F S_ .f32 := constant S_ .f32 0x7F800000#32
  let main_v1 : FVec F S8192x64x32 .f32 := broadcastInDim S8192x64x32 ![] bcast_S_S8192x64x32 main_cst
  let main_v2 : IVec S8192x64x32 1 := cmpf .olt main_v0 main_v1
  let main_c : IVec S_ 1 := constantI S_ 1 1#1
  let main_v3 : IVec S_ 1 := (fun x v => Host.reduce IntOp.andi x v reducesTo_S8192x64x32_S_d0_1_2 h_S_) main_v2 main_c
  main_v3
-- ==== Kernel.lean ====
abbrev S8192x64x32 : Shape := ⟨3, ![8192, 64, 32]⟩
abbrev S8192x2016 : Shape := ⟨2, ![8192, 2016]⟩
abbrev S256x64x32 : Shape := ⟨3, ![256, 64, 32]⟩
abbrev S256x2016 : Shape := ⟨2, ![256, 2016]⟩
abbrev S256x64x64 : Shape := ⟨3, ![256, 64, 64]⟩
abbrev S256x1x63 : Shape := ⟨3, ![256, 1, 63]⟩
abbrev S256x63 : Shape := ⟨2, ![256, 63]⟩
abbrev S256x1x62 : Shape := ⟨3, ![256, 1, 62]⟩
abbrev S256x62 : Shape := ⟨2, ![256, 62]⟩
abbrev S256x1x61 : Shape := ⟨3, ![256, 1, 61]⟩
abbrev S256x61 : Shape := ⟨2, ![256, 61]⟩
abbrev S256x1x60 : Shape := ⟨3, ![256, 1, 60]⟩
abbrev S256x60 : Shape := ⟨2, ![256, 60]⟩
abbrev S256x1x59 : Shape := ⟨3, ![256, 1, 59]⟩
abbrev S256x59 : Shape := ⟨2, ![256, 59]⟩
abbrev S256x1x58 : Shape := ⟨3, ![256, 1, 58]⟩
abbrev S256x58 : Shape := ⟨2, ![256, 58]⟩
abbrev S256x1x57 : Shape := ⟨3, ![256, 1, 57]⟩
abbrev S256x57 : Shape := ⟨2, ![256, 57]⟩
abbrev S256x1x56 : Shape := ⟨3, ![256, 1, 56]⟩
abbrev S256x56 : Shape := ⟨2, ![256, 56]⟩
abbrev S256x1x55 : Shape := ⟨3, ![256, 1, 55]⟩
abbrev S256x55 : Shape := ⟨2, ![256, 55]⟩
abbrev S256x1x54 : Shape := ⟨3, ![256, 1, 54]⟩
abbrev S256x54 : Shape := ⟨2, ![256, 54]⟩
abbrev S256x1x53 : Shape := ⟨3, ![256, 1, 53]⟩
abbrev S256x53 : Shape := ⟨2, ![256, 53]⟩
abbrev S256x1x52 : Shape := ⟨3, ![256, 1, 52]⟩
abbrev S256x52 : Shape := ⟨2, ![256, 52]⟩
abbrev S256x1x51 : Shape := ⟨3, ![256, 1, 51]⟩
abbrev S256x51 : Shape := ⟨2, ![256, 51]⟩
abbrev S256x1x50 : Shape := ⟨3, ![256, 1, 50]⟩
abbrev S256x50 : Shape := ⟨2, ![256, 50]⟩
abbrev S256x1x49 : Shape := ⟨3, ![256, 1, 49]⟩
abbrev S256x49 : Shape := ⟨2, ![256, 49]⟩
abbrev S256x1x48 : Shape := ⟨3, ![256, 1, 48]⟩
abbrev S256x48 : Shape := ⟨2, ![256, 48]⟩
abbrev S256x1x47 : Shape := ⟨3, ![256, 1, 47]⟩
abbrev S256x47 : Shape := ⟨2, ![256, 47]⟩
abbrev S256x1x46 : Shape := ⟨3, ![256, 1, 46]⟩
abbrev S256x46 : Shape := ⟨2, ![256, 46]⟩
abbrev S256x1x45 : Shape := ⟨3, ![256, 1, 45]⟩
abbrev S256x45 : Shape := ⟨2, ![256, 45]⟩
abbrev S256x1x44 : Shape := ⟨3, ![256, 1, 44]⟩
abbrev S256x44 : Shape := ⟨2, ![256, 44]⟩
abbrev S256x1x43 : Shape := ⟨3, ![256, 1, 43]⟩
abbrev S256x43 : Shape := ⟨2, ![256, 43]⟩
abbrev S256x1x42 : Shape := ⟨3, ![256, 1, 42]⟩
abbrev S256x42 : Shape := ⟨2, ![256, 42]⟩
abbrev S256x1x41 : Shape := ⟨3, ![256, 1, 41]⟩
abbrev S256x41 : Shape := ⟨2, ![256, 41]⟩
abbrev S256x1x40 : Shape := ⟨3, ![256, 1, 40]⟩
abbrev S256x40 : Shape := ⟨2, ![256, 40]⟩
abbrev S256x1x39 : Shape := ⟨3, ![256, 1, 39]⟩
abbrev S256x39 : Shape := ⟨2, ![256, 39]⟩
abbrev S256x1x38 : Shape := ⟨3, ![256, 1, 38]⟩
abbrev S256x38 : Shape := ⟨2, ![256, 38]⟩
abbrev S256x1x37 : Shape := ⟨3, ![256, 1, 37]⟩
abbrev S256x37 : Shape := ⟨2, ![256, 37]⟩
abbrev S256x1x36 : Shape := ⟨3, ![256, 1, 36]⟩
abbrev S256x36 : Shape := ⟨2, ![256, 36]⟩
abbrev S256x1x35 : Shape := ⟨3, ![256, 1, 35]⟩
abbrev S256x35 : Shape := ⟨2, ![256, 35]⟩
abbrev S256x1x34 : Shape := ⟨3, ![256, 1, 34]⟩
abbrev S256x34 : Shape := ⟨2, ![256, 34]⟩
abbrev S256x1x33 : Shape := ⟨3, ![256, 1, 33]⟩
abbrev S256x33 : Shape := ⟨2, ![256, 33]⟩
abbrev S256x1x32 : Shape := ⟨3, ![256, 1, 32]⟩
abbrev S256x32 : Shape := ⟨2, ![256, 32]⟩
abbrev S256x1x31 : Shape := ⟨3, ![256, 1, 31]⟩
abbrev S256x31 : Shape := ⟨2, ![256, 31]⟩
abbrev S256x1x30 : Shape := ⟨3, ![256, 1, 30]⟩
abbrev S256x30 : Shape := ⟨2, ![256, 30]⟩
abbrev S256x1x29 : Shape := ⟨3, ![256, 1, 29]⟩
abbrev S256x29 : Shape := ⟨2, ![256, 29]⟩
abbrev S256x1x28 : Shape := ⟨3, ![256, 1, 28]⟩
abbrev S256x28 : Shape := ⟨2, ![256, 28]⟩
abbrev S256x1x27 : Shape := ⟨3, ![256, 1, 27]⟩
abbrev S256x27 : Shape := ⟨2, ![256, 27]⟩
abbrev S256x1x26 : Shape := ⟨3, ![256, 1, 26]⟩
abbrev S256x26 : Shape := ⟨2, ![256, 26]⟩
abbrev S256x1x25 : Shape := ⟨3, ![256, 1, 25]⟩
abbrev S256x25 : Shape := ⟨2, ![256, 25]⟩
abbrev S256x1x24 : Shape := ⟨3, ![256, 1, 24]⟩
abbrev S256x24 : Shape := ⟨2, ![256, 24]⟩
abbrev S256x1x23 : Shape := ⟨3, ![256, 1, 23]⟩
abbrev S256x23 : Shape := ⟨2, ![256, 23]⟩
abbrev S256x1x22 : Shape := ⟨3, ![256, 1, 22]⟩
abbrev S256x22 : Shape := ⟨2, ![256, 22]⟩
abbrev S256x1x21 : Shape := ⟨3, ![256, 1, 21]⟩
abbrev S256x21 : Shape := ⟨2, ![256, 21]⟩
abbrev S256x1x20 : Shape := ⟨3, ![256, 1, 20]⟩
abbrev S256x20 : Shape := ⟨2, ![256, 20]⟩
abbrev S256x1x19 : Shape := ⟨3, ![256, 1, 19]⟩
abbrev S256x19 : Shape := ⟨2, ![256, 19]⟩
abbrev S256x1x18 : Shape := ⟨3, ![256, 1, 18]⟩
abbrev S256x18 : Shape := ⟨2, ![256, 18]⟩
abbrev S256x1x17 : Shape := ⟨3, ![256, 1, 17]⟩
abbrev S256x17 : Shape := ⟨2, ![256, 17]⟩
abbrev S256x1x16 : Shape := ⟨3, ![256, 1, 16]⟩
abbrev S256x16 : Shape := ⟨2, ![256, 16]⟩
abbrev S256x1x15 : Shape := ⟨3, ![256, 1, 15]⟩
abbrev S256x15 : Shape := ⟨2, ![256, 15]⟩
abbrev S256x1x14 : Shape := ⟨3, ![256, 1, 14]⟩
abbrev S256x14 : Shape := ⟨2, ![256, 14]⟩
abbrev S256x1x13 : Shape := ⟨3, ![256, 1, 13]⟩
abbrev S256x13 : Shape := ⟨2, ![256, 13]⟩
abbrev S256x1x12 : Shape := ⟨3, ![256, 1, 12]⟩
abbrev S256x12 : Shape := ⟨2, ![256, 12]⟩
abbrev S256x1x11 : Shape := ⟨3, ![256, 1, 11]⟩
abbrev S256x11 : Shape := ⟨2, ![256, 11]⟩
abbrev S256x1x10 : Shape := ⟨3, ![256, 1, 10]⟩
abbrev S256x10 : Shape := ⟨2, ![256, 10]⟩
abbrev S256x1x9 : Shape := ⟨3, ![256, 1, 9]⟩
abbrev S256x9 : Shape := ⟨2, ![256, 9]⟩
abbrev S256x1x8 : Shape := ⟨3, ![256, 1, 8]⟩
abbrev S256x8 : Shape := ⟨2, ![256, 8]⟩
abbrev S256x1x7 : Shape := ⟨3, ![256, 1, 7]⟩
abbrev S256x7 : Shape := ⟨2, ![256, 7]⟩
abbrev S256x1x6 : Shape := ⟨3, ![256, 1, 6]⟩
abbrev S256x6 : Shape := ⟨2, ![256, 6]⟩
abbrev S256x1x5 : Shape := ⟨3, ![256, 1, 5]⟩
abbrev S256x5 : Shape := ⟨2, ![256, 5]⟩
abbrev S256x1x4 : Shape := ⟨3, ![256, 1, 4]⟩
abbrev S256x4 : Shape := ⟨2, ![256, 4]⟩
abbrev S256x1x3 : Shape := ⟨3, ![256, 1, 3]⟩
abbrev S256x3 : Shape := ⟨2, ![256, 3]⟩
abbrev S256x1x2 : Shape := ⟨3, ![256, 1, 2]⟩
abbrev S256x2 : Shape := ⟨2, ![256, 2]⟩
abbrev S256x1x1 : Shape := ⟨3, ![256, 1, 1]⟩
abbrev S256x1 : Shape := ⟨2, ![256, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x64x32, .f32⟩
  | .hbm, ⟨1, _⟩ => ⟨S8192x2016, .f32⟩
  | .local _ .vmem, ⟨0, _⟩ => ⟨S256x64x32, .f32⟩
  | .local _ .vmem, ⟨1, _⟩ => ⟨S256x64x32, .f32⟩
  | .local _ .vmem, ⟨2, _⟩ => ⟨S256x2016, .f32⟩
  | .local _ .vmem, ⟨3, _⟩ => ⟨S256x2016, .f32⟩
  | _, _ => ⟨S8192x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2016 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x64x32_S256x64x32_0_0_0 : ∀ a, (![0, 0, 0] : Fin 3 → Nat) a + S256x64x32.size a ≤ S256x64x32.size a
  h_S256x64x32 : 0 < S256x64x32.numel
  slices_S256x64x64_o0_0_1_S256x1x63 : S256x64x64.Slices ![0, 0, 1] S256x1x63
  shapeCasts_S256x1x63_S256x63 : S256x1x63.ShapeCasts S256x63
  inb_S256x2016_S256x63_0_0 : ∀ a, (![0, 0] : Fin 2 → Nat) a + S256x63.size a ≤ S256x2016.size a
  h_S256x63 : 0 < S256x63.numel
  slices_S256x64x64_o0_1_2_S256x1x62 : S256x64x64.Slices ![0, 1, 2] S256x1x62
  shapeCasts_S256x1x62_S256x62 : S256x1x62.ShapeCasts S256x62
  inb_S256x2016_S256x62_0_63 : ∀ a, (![0, 63] : Fin 2 → Nat) a + S256x62.size a ≤ S256x2016.size a
  h_S256x62 : 0 < S256x62.numel
  slices_S256x64x64_o0_2_3_S256x1x61 : S256x64x64.Slices ![0, 2, 3] S256x1x61
  shapeCasts_S256x1x61_S256x61 : S256x1x61.ShapeCasts S256x61
  inb_S256x2016_S256x61_0_125 : ∀ a, (![0, 125] : Fin 2 → Nat) a + S256x61.size a ≤ S256x2016.size a
  h_S256x61 : 0 < S256x61.numel
  slices_S256x64x64_o0_3_4_S256x1x60 : S256x64x64.Slices ![0, 3, 4] S256x1x60
  shapeCasts_S256x1x60_S256x60 : S256x1x60.ShapeCasts S256x60
  inb_S256x2016_S256x60_0_186 : ∀ a, (![0, 186] : Fin 2 → Nat) a + S256x60.size a ≤ S256x2016.size a
  h_S256x60 : 0 < S256x60.numel
  slices_S256x64x64_o0_4_5_S256x1x59 : S256x64x64.Slices ![0, 4, 5] S256x1x59
  shapeCasts_S256x1x59_S256x59 : S256x1x59.ShapeCasts S256x59
  inb_S256x2016_S256x59_0_246 : ∀ a, (![0, 246] : Fin 2 → Nat) a + S256x59.size a ≤ S256x2016.size a
  h_S256x59 : 0 < S256x59.numel
  slices_S256x64x64_o0_5_6_S256x1x58 : S256x64x64.Slices ![0, 5, 6] S256x1x58
  shapeCasts_S256x1x58_S256x58 : S256x1x58.ShapeCasts S256x58
  inb_S256x2016_S256x58_0_305 : ∀ a, (![0, 305] : Fin 2 → Nat) a + S256x58.size a ≤ S256x2016.size a
  h_S256x58 : 0 < S256x58.numel
  slices_S256x64x64_o0_6_7_S256x1x57 : S256x64x64.Slices ![0, 6, 7] S256x1x57
  shapeCasts_S256x1x57_S256x57 : S256x1x57.ShapeCasts S256x57
  inb_S256x2016_S256x57_0_363 : ∀ a, (![0, 363] : Fin 2 → Nat) a + S256x57.size a ≤ S256x2016.size a
  h_S256x57 : 0 < S256x57.numel
  slices_S256x64x64_o0_7_8_S256x1x56 : S256x64x64.Slices ![0, 7, 8] S256x1x56
  shapeCasts_S256x1x56_S256x56 : S256x1x56.ShapeCasts S256x56
  inb_S256x2016_S256x56_0_420 : ∀ a, (![0, 420] : Fin 2 → Nat) a + S256x56.size a ≤ S256x2016.size a
  h_S256x56 : 0 < S256x56.numel
  slices_S256x64x64_o0_8_9_S256x1x55 : S256x64x64.Slices ![0, 8, 9] S256x1x55
  shapeCasts_S256x1x55_S256x55 : S256x1x55.ShapeCasts S256x55
  inb_S256x2016_S256x55_0_476 : ∀ a, (![0, 476] : Fin 2 → Nat) a + S256x55.size a ≤ S256x2016.size a
  h_S256x55 : 0 < S256x55.numel
  slices_S256x64x64_o0_9_10_S256x1x54 : S256x64x64.Slices ![0, 9, 10] S256x1x54
  shapeCasts_S256x1x54_S256x54 : S256x1x54.ShapeCasts S256x54
  inb_S256x2016_S256x54_0_531 : ∀ a, (![0, 531] : Fin 2 → Nat) a + S256x54.size a ≤ S256x2016.size a
  h_S256x54 : 0 < S256x54.numel
  slices_S256x64x64_o0_10_11_S256x1x53 : S256x64x64.Slices ![0, 10, 11] S256x1x53
  shapeCasts_S256x1x53_S256x53 : S256x1x53.ShapeCasts S256x53
  inb_S256x2016_S256x53_0_585 : ∀ a, (![0, 585] : Fin 2 → Nat) a + S256x53.size a ≤ S256x2016.size a
  h_S256x53 : 0 < S256x53.numel
  slices_S256x64x64_o0_11_12_S256x1x52 : S256x64x64.Slices ![0, 11, 12] S256x1x52
  shapeCasts_S256x1x52_S256x52 : S256x1x52.ShapeCasts S256x52
  inb_S256x2016_S256x52_0_638 : ∀ a, (![0, 638] : Fin 2 → Nat) a + S256x52.size a ≤ S256x2016.size a
  h_S256x52 : 0 < S256x52.numel
  slices_S256x64x64_o0_12_13_S256x1x51 : S256x64x64.Slices ![0, 12, 13] S256x1x51
  shapeCasts_S256x1x51_S256x51 : S256x1x51.ShapeCasts S256x51
  inb_S256x2016_S256x51_0_690 : ∀ a, (![0, 690] : Fin 2 → Nat) a + S256x51.size a ≤ S256x2016.size a
  h_S256x51 : 0 < S256x51.numel
  slices_S256x64x64_o0_13_14_S256x1x50 : S256x64x64.Slices ![0, 13, 14] S256x1x50
  shapeCasts_S256x1x50_S256x50 : S256x1x50.ShapeCasts S256x50
  inb_S256x2016_S256x50_0_741 : ∀ a, (![0, 741] : Fin 2 → Nat) a + S256x50.size a ≤ S256x2016.size a
  h_S256x50 : 0 < S256x50.numel
  slices_S256x64x64_o0_14_15_S256x1x49 : S256x64x64.Slices ![0, 14, 15] S256x1x49
  shapeCasts_S256x1x49_S256x49 : S256x1x49.ShapeCasts S256x49
  inb_S256x2016_S256x49_0_791 : ∀ a, (![0, 791] : Fin 2 → Nat) a + S256x49.size a ≤ S256x2016.size a
  h_S256x49 : 0 < S256x49.numel
  slices_S256x64x64_o0_15_16_S256x1x48 : S256x64x64.Slices ![0, 15, 16] S256x1x48
  shapeCasts_S256x1x48_S256x48 : S256x1x48.ShapeCasts S256x48
  inb_S256x2016_S256x48_0_840 : ∀ a, (![0, 840] : Fin 2 → Nat) a + S256x48.size a ≤ S256x2016.size a
  h_S256x48 : 0 < S256x48.numel
  slices_S256x64x64_o0_16_17_S256x1x47 : S256x64x64.Slices ![0, 16, 17] S256x1x47
  shapeCasts_S256x1x47_S256x47 : S256x1x47.ShapeCasts S256x47
  inb_S256x2016_S256x47_0_888 : ∀ a, (![0, 888] : Fin 2 → Nat) a + S256x47.size a ≤ S256x2016.size a
  h_S256x47 : 0 < S256x47.numel
  slices_S256x64x64_o0_17_18_S256x1x46 : S256x64x64.Slices ![0, 17, 18] S256x1x46
  shapeCasts_S256x1x46_S256x46 : S256x1x46.ShapeCasts S256x46
  inb_S256x2016_S256x46_0_935 : ∀ a, (![0, 935] : Fin 2 → Nat) a + S256x46.size a ≤ S256x2016.size a
  h_S256x46 : 0 < S256x46.numel
  slices_S256x64x64_o0_18_19_S256x1x45 : S256x64x64.Slices ![0, 18, 19] S256x1x45
  shapeCasts_S256x1x45_S256x45 : S256x1x45.ShapeCasts S256x45
  inb_S256x2016_S256x45_0_981 : ∀ a, (![0, 981] : Fin 2 → Nat) a + S256x45.size a ≤ S256x2016.size a
  h_S256x45 : 0 < S256x45.numel
  slices_S256x64x64_o0_19_20_S256x1x44 : S256x64x64.Slices ![0, 19, 20] S256x1x44
  shapeCasts_S256x1x44_S256x44 : S256x1x44.ShapeCasts S256x44
  inb_S256x2016_S256x44_0_1026 : ∀ a, (![0, 1026] : Fin 2 → Nat) a + S256x44.size a ≤ S256x2016.size a
  h_S256x44 : 0 < S256x44.numel
  slices_S256x64x64_o0_20_21_S256x1x43 : S256x64x64.Slices ![0, 20, 21] S256x1x43
  shapeCasts_S256x1x43_S256x43 : S256x1x43.ShapeCasts S256x43
  inb_S256x2016_S256x43_0_1070 : ∀ a, (![0, 1070] : Fin 2 → Nat) a + S256x43.size a ≤ S256x2016.size a
  h_S256x43 : 0 < S256x43.numel
  slices_S256x64x64_o0_21_22_S256x1x42 : S256x64x64.Slices ![0, 21, 22] S256x1x42
  shapeCasts_S256x1x42_S256x42 : S256x1x42.ShapeCasts S256x42
  inb_S256x2016_S256x42_0_1113 : ∀ a, (![0, 1113] : Fin 2 → Nat) a + S256x42.size a ≤ S256x2016.size a
  h_S256x42 : 0 < S256x42.numel
  slices_S256x64x64_o0_22_23_S256x1x41 : S256x64x64.Slices ![0, 22, 23] S256x1x41
  shapeCasts_S256x1x41_S256x41 : S256x1x41.ShapeCasts S256x41
  inb_S256x2016_S256x41_0_1155 : ∀ a, (![0, 1155] : Fin 2 → Nat) a + S256x41.size a ≤ S256x2016.size a
  h_S256x41 : 0 < S256x41.numel
  slices_S256x64x64_o0_23_24_S256x1x40 : S256x64x64.Slices ![0, 23, 24] S256x1x40
  shapeCasts_S256x1x40_S256x40 : S256x1x40.ShapeCasts S256x40
  inb_S256x2016_S256x40_0_1196 : ∀ a, (![0, 1196] : Fin 2 → Nat) a + S256x40.size a ≤ S256x2016.size a
  h_S256x40 : 0 < S256x40.numel
  slices_S256x64x64_o0_24_25_S256x1x39 : S256x64x64.Slices ![0, 24, 25] S256x1x39
  shapeCasts_S256x1x39_S256x39 : S256x1x39.ShapeCasts S256x39
  inb_S256x2016_S256x39_0_1236 : ∀ a, (![0, 1236] : Fin 2 → Nat) a + S256x39.size a ≤ S256x2016.size a
  h_S256x39 : 0 < S256x39.numel
  slices_S256x64x64_o0_25_26_S256x1x38 : S256x64x64.Slices ![0, 25, 26] S256x1x38
  shapeCasts_S256x1x38_S256x38 : S256x1x38.ShapeCasts S256x38
  inb_S256x2016_S256x38_0_1275 : ∀ a, (![0, 1275] : Fin 2 → Nat) a + S256x38.size a ≤ S256x2016.size a
  h_S256x38 : 0 < S256x38.numel
  slices_S256x64x64_o0_26_27_S256x1x37 : S256x64x64.Slices ![0, 26, 27] S256x1x37
  shapeCasts_S256x1x37_S256x37 : S256x1x37.ShapeCasts S256x37
  inb_S256x2016_S256x37_0_1313 : ∀ a, (![0, 1313] : Fin 2 → Nat) a + S256x37.size a ≤ S256x2016.size a
  h_S256x37 : 0 < S256x37.numel
  slices_S256x64x64_o0_27_28_S256x1x36 : S256x64x64.Slices ![0, 27, 28] S256x1x36
  shapeCasts_S256x1x36_S256x36 : S256x1x36.ShapeCasts S256x36
  inb_S256x2016_S256x36_0_1350 : ∀ a, (![0, 1350] : Fin 2 → Nat) a + S256x36.size a ≤ S256x2016.size a
  h_S256x36 : 0 < S256x36.numel
  slices_S256x64x64_o0_28_29_S256x1x35 : S256x64x64.Slices ![0, 28, 29] S256x1x35
  shapeCasts_S256x1x35_S256x35 : S256x1x35.ShapeCasts S256x35
  inb_S256x2016_S256x35_0_1386 : ∀ a, (![0, 1386] : Fin 2 → Nat) a + S256x35.size a ≤ S256x2016.size a
  h_S256x35 : 0 < S256x35.numel
  slices_S256x64x64_o0_29_30_S256x1x34 : S256x64x64.Slices ![0, 29, 30] S256x1x34
  shapeCasts_S256x1x34_S256x34 : S256x1x34.ShapeCasts S256x34
  inb_S256x2016_S256x34_0_1421 : ∀ a, (![0, 1421] : Fin 2 → Nat) a + S256x34.size a ≤ S256x2016.size a
  h_S256x34 : 0 < S256x34.numel
  slices_S256x64x64_o0_30_31_S256x1x33 : S256x64x64.Slices ![0, 30, 31] S256x1x33
  shapeCasts_S256x1x33_S256x33 : S256x1x33.ShapeCasts S256x33
  inb_S256x2016_S256x33_0_1455 : ∀ a, (![0, 1455] : Fin 2 → Nat) a + S256x33.size a ≤ S256x2016.size a
  h_S256x33 : 0 < S256x33.numel
  slices_S256x64x64_o0_31_32_S256x1x32 : S256x64x64.Slices ![0, 31, 32] S256x1x32
  shapeCasts_S256x1x32_S256x32 : S256x1x32.ShapeCasts S256x32
  inb_S256x2016_S256x32_0_1488 : ∀ a, (![0, 1488] : Fin 2 → Nat) a + S256x32.size a ≤ S256x2016.size a
  h_S256x32 : 0 < S256x32.numel
  slices_S256x64x64_o0_32_33_S256x1x31 : S256x64x64.Slices ![0, 32, 33] S256x1x31
  shapeCasts_S256x1x31_S256x31 : S256x1x31.ShapeCasts S256x31
  inb_S256x2016_S256x31_0_1520 : ∀ a, (![0, 1520] : Fin 2 → Nat) a + S256x31.size a ≤ S256x2016.size a
  h_S256x31 : 0 < S256x31.numel
  slices_S256x64x64_o0_33_34_S256x1x30 : S256x64x64.Slices ![0, 33, 34] S256x1x30
  shapeCasts_S256x1x30_S256x30 : S256x1x30.ShapeCasts S256x30
  inb_S256x2016_S256x30_0_1551 : ∀ a, (![0, 1551] : Fin 2 → Nat) a + S256x30.size a ≤ S256x2016.size a
  h_S256x30 : 0 < S256x30.numel
  slices_S256x64x64_o0_34_35_S256x1x29 : S256x64x64.Slices ![0, 34, 35] S256x1x29
  shapeCasts_S256x1x29_S256x29 : S256x1x29.ShapeCasts S256x29
  inb_S256x2016_S256x29_0_1581 : ∀ a, (![0, 1581] : Fin 2 → Nat) a + S256x29.size a ≤ S256x2016.size a
  h_S256x29 : 0 < S256x29.numel
  slices_S256x64x64_o0_35_36_S256x1x28 : S256x64x64.Slices ![0, 35, 36] S256x1x28
  shapeCasts_S256x1x28_S256x28 : S256x1x28.ShapeCasts S256x28
  inb_S256x2016_S256x28_0_1610 : ∀ a, (![0, 1610] : Fin 2 → Nat) a + S256x28.size a ≤ S256x2016.size a
  h_S256x28 : 0 < S256x28.numel
  slices_S256x64x64_o0_36_37_S256x1x27 : S256x64x64.Slices ![0, 36, 37] S256x1x27
  shapeCasts_S256x1x27_S256x27 : S256x1x27.ShapeCasts S256x27
  inb_S256x2016_S256x27_0_1638 : ∀ a, (![0, 1638] : Fin 2 → Nat) a + S256x27.size a ≤ S256x2016.size a
  h_S256x27 : 0 < S256x27.numel
  slices_S256x64x64_o0_37_38_S256x1x26 : S256x64x64.Slices ![0, 37, 38] S256x1x26
  shapeCasts_S256x1x26_S256x26 : S256x1x26.ShapeCasts S256x26
  inb_S256x2016_S256x26_0_1665 : ∀ a, (![0, 1665] : Fin 2 → Nat) a + S256x26.size a ≤ S256x2016.size a
  h_S256x26 : 0 < S256x26.numel
  slices_S256x64x64_o0_38_39_S256x1x25 : S256x64x64.Slices ![0, 38, 39] S256x1x25
  shapeCasts_S256x1x25_S256x25 : S256x1x25.ShapeCasts S256x25
  inb_S256x2016_S256x25_0_1691 : ∀ a, (![0, 1691] : Fin 2 → Nat) a + S256x25.size a ≤ S256x2016.size a
  h_S256x25 : 0 < S256x25.numel
  slices_S256x64x64_o0_39_40_S256x1x24 : S256x64x64.Slices ![0, 39, 40] S256x1x24
  shapeCasts_S256x1x24_S256x24 : S256x1x24.ShapeCasts S256x24
  inb_S256x2016_S256x24_0_1716 : ∀ a, (![0, 1716] : Fin 2 → Nat) a + S256x24.size a ≤ S256x2016.size a
  h_S256x24 : 0 < S256x24.numel
  slices_S256x64x64_o0_40_41_S256x1x23 : S256x64x64.Slices ![0, 40, 41] S256x1x23
  shapeCasts_S256x1x23_S256x23 : S256x1x23.ShapeCasts S256x23
  inb_S256x2016_S256x23_0_1740 : ∀ a, (![0, 1740] : Fin 2 → Nat) a + S256x23.size a ≤ S256x2016.size a
  h_S256x23 : 0 < S256x23.numel
  slices_S256x64x64_o0_41_42_S256x1x22 : S256x64x64.Slices ![0, 41, 42] S256x1x22
  shapeCasts_S256x1x22_S256x22 : S256x1x22.ShapeCasts S256x22
  inb_S256x2016_S256x22_0_1763 : ∀ a, (![0, 1763] : Fin 2 → Nat) a + S256x22.size a ≤ S256x2016.size a
  h_S256x22 : 0 < S256x22.numel
  slices_S256x64x64_o0_42_43_S256x1x21 : S256x64x64.Slices ![0, 42, 43] S256x1x21
  shapeCasts_S256x1x21_S256x21 : S256x1x21.ShapeCasts S256x21
  inb_S256x2016_S256x21_0_1785 : ∀ a, (![0, 1785] : Fin 2 → Nat) a + S256x21.size a ≤ S256x2016.size a
  h_S256x21 : 0 < S256x21.numel
  slices_S256x64x64_o0_43_44_S256x1x20 : S256x64x64.Slices ![0, 43, 44] S256x1x20
  shapeCasts_S256x1x20_S256x20 : S256x1x20.ShapeCasts S256x20
  inb_S256x2016_S256x20_0_1806 : ∀ a, (![0, 1806] : Fin 2 → Nat) a + S256x20.size a ≤ S256x2016.size a
  h_S256x20 : 0 < S256x20.numel
  slices_S256x64x64_o0_44_45_S256x1x19 : S256x64x64.Slices ![0, 44, 45] S256x1x19
  shapeCasts_S256x1x19_S256x19 : S256x1x19.ShapeCasts S256x19
  inb_S256x2016_S256x19_0_1826 : ∀ a, (![0, 1826] : Fin 2 → Nat) a + S256x19.size a ≤ S256x2016.size a
  h_S256x19 : 0 < S256x19.numel
  slices_S256x64x64_o0_45_46_S256x1x18 : S256x64x64.Slices ![0, 45, 46] S256x1x18
  shapeCasts_S256x1x18_S256x18 : S256x1x18.ShapeCasts S256x18
  inb_S256x2016_S256x18_0_1845 : ∀ a, (![0, 1845] : Fin 2 → Nat) a + S256x18.size a ≤ S256x2016.size a
  h_S256x18 : 0 < S256x18.numel
  slices_S256x64x64_o0_46_47_S256x1x17 : S256x64x64.Slices ![0, 46, 47] S256x1x17
  shapeCasts_S256x1x17_S256x17 : S256x1x17.ShapeCasts S256x17
  inb_S256x2016_S256x17_0_1863 : ∀ a, (![0, 1863] : Fin 2 → Nat) a + S256x17.size a ≤ S256x2016.size a
  h_S256x17 : 0 < S256x17.numel
  slices_S256x64x64_o0_47_48_S256x1x16 : S256x64x64.Slices ![0, 47, 48] S256x1x16
  shapeCasts_S256x1x16_S256x16 : S256x1x16.ShapeCasts S256x16
  inb_S256x2016_S256x16_0_1880 : ∀ a, (![0, 1880] : Fin 2 → Nat) a + S256x16.size a ≤ S256x2016.size a
  h_S256x16 : 0 < S256x16.numel
  slices_S256x64x64_o0_48_49_S256x1x15 : S256x64x64.Slices ![0, 48, 49] S256x1x15
  shapeCasts_S256x1x15_S256x15 : S256x1x15.ShapeCasts S256x15
  inb_S256x2016_S256x15_0_1896 : ∀ a, (![0, 1896] : Fin 2 → Nat) a + S256x15.size a ≤ S256x2016.size a
  h_S256x15 : 0 < S256x15.numel
  slices_S256x64x64_o0_49_50_S256x1x14 : S256x64x64.Slices ![0, 49, 50] S256x1x14
  shapeCasts_S256x1x14_S256x14 : S256x1x14.ShapeCasts S256x14
  inb_S256x2016_S256x14_0_1911 : ∀ a, (![0, 1911] : Fin 2 → Nat) a + S256x14.size a ≤ S256x2016.size a
  h_S256x14 : 0 < S256x14.numel
  slices_S256x64x64_o0_50_51_S256x1x13 : S256x64x64.Slices ![0, 50, 51] S256x1x13
  shapeCasts_S256x1x13_S256x13 : S256x1x13.ShapeCasts S256x13
  inb_S256x2016_S256x13_0_1925 : ∀ a, (![0, 1925] : Fin 2 → Nat) a + S256x13.size a ≤ S256x2016.size a
  h_S256x13 : 0 < S256x13.numel
  slices_S256x64x64_o0_51_52_S256x1x12 : S256x64x64.Slices ![0, 51, 52] S256x1x12
  shapeCasts_S256x1x12_S256x12 : S256x1x12.ShapeCasts S256x12
  inb_S256x2016_S256x12_0_1938 : ∀ a, (![0, 1938] : Fin 2 → Nat) a + S256x12.size a ≤ S256x2016.size a
  h_S256x12 : 0 < S256x12.numel
  slices_S256x64x64_o0_52_53_S256x1x11 : S256x64x64.Slices ![0, 52, 53] S256x1x11
  shapeCasts_S256x1x11_S256x11 : S256x1x11.ShapeCasts S256x11
  inb_S256x2016_S256x11_0_1950 : ∀ a, (![0, 1950] : Fin 2 → Nat) a + S256x11.size a ≤ S256x2016.size a
  h_S256x11 : 0 < S256x11.numel
  slices_S256x64x64_o0_53_54_S256x1x10 : S256x64x64.Slices ![0, 53, 54] S256x1x10
  shapeCasts_S256x1x10_S256x10 : S256x1x10.ShapeCasts S256x10
  inb_S256x2016_S256x10_0_1961 : ∀ a, (![0, 1961] : Fin 2 → Nat) a + S256x10.size a ≤ S256x2016.size a
  h_S256x10 : 0 < S256x10.numel
  slices_S256x64x64_o0_54_55_S256x1x9 : S256x64x64.Slices ![0, 54, 55] S256x1x9
  shapeCasts_S256x1x9_S256x9 : S256x1x9.ShapeCasts S256x9
  inb_S256x2016_S256x9_0_1971 : ∀ a, (![0, 1971] : Fin 2 → Nat) a + S256x9.size a ≤ S256x2016.size a
  h_S256x9 : 0 < S256x9.numel
  slices_S256x64x64_o0_55_56_S256x1x8 : S256x64x64.Slices ![0, 55, 56] S256x1x8
  shapeCasts_S256x1x8_S256x8 : S256x1x8.ShapeCasts S256x8
  inb_S256x2016_S256x8_0_1980 : ∀ a, (![0, 1980] : Fin 2 → Nat) a + S256x8.size a ≤ S256x2016.size a
  h_S256x8 : 0 < S256x8.numel
  slices_S256x64x64_o0_56_57_S256x1x7 : S256x64x64.Slices ![0, 56, 57] S256x1x7
  shapeCasts_S256x1x7_S256x7 : S256x1x7.ShapeCasts S256x7
  inb_S256x2016_S256x7_0_1988 : ∀ a, (![0, 1988] : Fin 2 → Nat) a + S256x7.size a ≤ S256x2016.size a
  h_S256x7 : 0 < S256x7.numel
  slices_S256x64x64_o0_57_58_S256x1x6 : S256x64x64.Slices ![0, 57, 58] S256x1x6
  shapeCasts_S256x1x6_S256x6 : S256x1x6.ShapeCasts S256x6
  inb_S256x2016_S256x6_0_1995 : ∀ a, (![0, 1995] : Fin 2 → Nat) a + S256x6.size a ≤ S256x2016.size a
  h_S256x6 : 0 < S256x6.numel
  slices_S256x64x64_o0_58_59_S256x1x5 : S256x64x64.Slices ![0, 58, 59] S256x1x5
  shapeCasts_S256x1x5_S256x5 : S256x1x5.ShapeCasts S256x5
  inb_S256x2016_S256x5_0_2001 : ∀ a, (![0, 2001] : Fin 2 → Nat) a + S256x5.size a ≤ S256x2016.size a
  h_S256x5 : 0 < S256x5.numel
  slices_S256x64x64_o0_59_60_S256x1x4 : S256x64x64.Slices ![0, 59, 60] S256x1x4
  shapeCasts_S256x1x4_S256x4 : S256x1x4.ShapeCasts S256x4
  inb_S256x2016_S256x4_0_2006 : ∀ a, (![0, 2006] : Fin 2 → Nat) a + S256x4.size a ≤ S256x2016.size a
  h_S256x4 : 0 < S256x4.numel
  slices_S256x64x64_o0_60_61_S256x1x3 : S256x64x64.Slices ![0, 60, 61] S256x1x3
  shapeCasts_S256x1x3_S256x3 : S256x1x3.ShapeCasts S256x3
  inb_S256x2016_S256x3_0_2010 : ∀ a, (![0, 2010] : Fin 2 → Nat) a + S256x3.size a ≤ S256x2016.size a
  h_S256x3 : 0 < S256x3.numel
  slices_S256x64x64_o0_61_62_S256x1x2 : S256x64x64.Slices ![0, 61, 62] S256x1x2
  shapeCasts_S256x1x2_S256x2 : S256x1x2.ShapeCasts S256x2
  inb_S256x2016_S256x2_0_2013 : ∀ a, (![0, 2013] : Fin 2 → Nat) a + S256x2.size a ≤ S256x2016.size a
  h_S256x2 : 0 < S256x2.numel
  slices_S256x64x64_o0_62_63_S256x1x1 : S256x64x64.Slices ![0, 62, 63] S256x1x1
  shapeCasts_S256x1x1_S256x1 : S256x1x1.ShapeCasts S256x1
  inb_S256x2016_S256x1_0_2015 : ∀ a, (![0, 2015] : Fin 2 → Nat) a + S256x1.size a ≤ S256x2016.size a
  h_S256x1 : 0 < S256x1.numel
  dot_S256x64x32_S256x64x32_S256x64x64_2_2_1_1_0_0_wf : DotDims.WF S256x64x32 S256x64x32 S256x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x32.size a ≤ S8192x64x32.size a
  hwx0_0 : ∀ i : grid0.Coords, EltTy.bits .f32 = 32 ∨ (Rect.block (s := S8192x64x32) S256x64x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2016.size a ≤ S8192x2016.size a
  hwx0_1 : ∀ i : grid0.Coords, EltTy.bits .f32 = 32 ∨ (Rect.block (s := S8192x2016) S256x2016.size (cc0_transform_1 i) (hinb0_1 i)).WholeWords (EltTy.packing .f32)

variable [Facts₀]

def dot_S256x64x32_S256x64x32_S256x64x64_2_2_1_1_0_0 : DotDims S256x64x32 S256x64x32 S256x64x64 where
  lhsContracting := [2]
  rhsContracting := [2]
  lhsNonContracting := [1]
  rhsNonContracting := [1]
  lhsBatch := [0]
  rhsBatch := [0]
  wf := dot_S256x64x32_S256x64x32_S256x64x64_2_2_1_1_0_0_wf

abbrev win0_0 : Pipeline.Window sig grid0 :=
  Pipeline.Window.ofSpec (Memref.whole main_arg0) S256x64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2016.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x64x32 : Shape := ⟨3, ![8192, 64, 32]⟩
abbrev S2016 : Shape := ⟨1, ![2016]⟩
abbrev S8192x64x64 : Shape := ⟨3, ![8192, 64, 64]⟩
abbrev S_ : Shape := ⟨0, ![]⟩
abbrev S2016x1 : Shape := ⟨2, ![2016, 1]⟩
abbrev S2016x2 : Shape := ⟨2, ![2016, 2]⟩
abbrev S8192x2016 : Shape := ⟨2, ![8192, 2016]⟩

abbrev nBuf : Space → Nat
  | .hbm => 18
  | .vmem => 0
  | .smem => 0
  | _ => 0

abbrev bufTy : (tb : Table) → Fin (tcTables nBuf tb) → BufTy
  | .hbm, ⟨0, _⟩ => ⟨S8192x64x32, .f32⟩
  | .hbm, ⟨1, _⟩ => ⟨S2016, .i32⟩
  | .hbm, ⟨2, _⟩ => ⟨S2016, .i1⟩
  | .hbm, ⟨3, _⟩ => ⟨S2016, .i32⟩
  | .hbm, ⟨4, _⟩ => ⟨S2016, .i1⟩
  | .hbm, ⟨5, _⟩ => ⟨S8192x64x64, .f32⟩
  | .hbm, ⟨6, _⟩ => ⟨S_, .i32⟩
  | .hbm, ⟨7, _⟩ => ⟨S2016, .i32⟩
  | .hbm, ⟨8, _⟩ => ⟨S2016, .i32⟩
  | .hbm, ⟨9, _⟩ => ⟨S2016, .i32⟩
  | .hbm, ⟨10, _⟩ => ⟨S_, .i32⟩
  | .hbm, ⟨11, _⟩ => ⟨S2016, .i32⟩
  | .hbm, ⟨12, _⟩ => ⟨S2016, .i32⟩
  | .hbm, ⟨13, _⟩ => ⟨S2016, .i32⟩
  | .hbm, ⟨14, _⟩ => ⟨S2016x1, .i32⟩
  | .hbm, ⟨15, _⟩ => ⟨S2016x1, .i32⟩
  | .hbm, ⟨16, _⟩ => ⟨S2016x2, .i32⟩
  | .hbm, ⟨17, _⟩ => ⟨S8192x2016, .f32⟩
  | _, _ => ⟨S8192x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_4 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S8192x64x32_S8192x64x32_S8192x64x64_2_2_1_1_0_0_wf : DotDims.WF S8192x64x32 S8192x64x32 S8192x64x64 [2] [2] [1] [1] [0] [0]
  gather_S8192x64x64_S2016x2_S8192x2016_0_12_n_n_12_1_819211_wf : GatherDims.WF S8192x64x64 S2016x2 S8192x2016 [0] [1, 2] [] [1, 2] [] 1 ![8192, 1, 1]

variable [Facts₀]

def dot_S8192x64x32_S8192x64x32_S8192x64x64_2_2_1_1_0_0 : DotDims S8192x64x32 S8192x64x32 S8192x64x64 where
  lhsContracting := [2]
  rhsContracting := [2]
  lhsNonContracting := [1]
  rhsNonContracting := [1]
  lhsBatch := [0]
  rhsBatch := [0]
  wf := dot_S8192x64x32_S8192x64x32_S8192x64x64_2_2_1_1_0_0_wf
def gather_S8192x64x64_S2016x2_S8192x2016_0_12_n_n_12_1_819211 : GatherDims S8192x64x64 S2016x2 S8192x2016 where
  offsetDims := [0]
  collapsedSliceDims := [1, 2]
  operandBatchingDims := []
  startIndicesBatchingDims := []
  startIndexMap := [1, 2]
  indexVectorDim := 1
  sliceSizes := ![8192, 1, 1]
  wf := gather_S8192x64x64_S2016x2_S8192x2016_0_12_n_n_12_1_819211_wf

class Facts : Prop extends Facts₀ where

variable [Facts]
-- ==== Proof.LibStripCover.lean ====
/-
  Column strips that cover a matrix.

  A store into an H × W buffer writes a rectangle of it. When a list of stores consists of strips — each of all H rows, of unit
  strides, and of some run of consecutive columns — and the strips sit side by side, the first of the list ending at column W, each
  next one ending where the one before it began, and the last beginning at column 0, then every index of the buffer lies in one of
  the strips: walk down the list until the strip whose first column is at most the index's column.

  `stripsDown L top` is that check as a Boolean, computed from the rectangles' offsets, sizes and strides alone (63 strips cost 63
  steps, whatever their widths), and `cover_of_stripsDown` is the covering it implies.
-/
import Idealize.ShloMosaic.Lib.Pipeline.FrameBody

namespace Cert.LibStripCover

open Idealize.ShloMosaic

variable {Val : EltTy → Type} {e : EltTy} {H W : ℕ}

/-- Whether the pieces, read from the head of the list, are strips of all `H` rows and unit strides lying side by side from
    column `top` down to column 0. -/
def stripsDown : List (View.Piece Val ⟨2, ![H, W]⟩ e) → ℕ → Bool
  | [], top => top == 0
  | p :: L, top =>
    (p.1.off (0 : Fin 2) == 0 && p.1.size (0 : Fin 2) == H && p.1.stride (0 : Fin 2) == 1 && p.1.stride (1 : Fin 2) == 1
      && p.1.off (1 : Fin 2) + p.1.size (1 : Fin 2) == top) && stripsDown L (p.1.off (1 : Fin 2))

/-- Strips lying side by side from column `top` down to column 0 hold every index whose column is below `top`. -/
theorem cover_below : ∀ (L : List (View.Piece Val ⟨2, ![H, W]⟩ e)) (top : ℕ), stripsDown L top = true →
    ∀ y : (⟨2, ![H, W]⟩ : Shape).Idx, (y (1 : Fin 2)).val < top → ∃ p ∈ L, y ∈ p.1.set
  | [], top, h, y, hy => by
    simp only [stripsDown, beq_iff_eq] at h
    omega
  | p :: L, top, h, y, hy => by
    simp only [stripsDown, Bool.and_eq_true, beq_iff_eq] at h
    obtain ⟨⟨⟨⟨⟨h0, h1⟩, h2⟩, h3⟩, h4⟩, h5⟩ := h
    by_cases hc : p.1.off (1 : Fin 2) ≤ (y (1 : Fin 2)).val
    · refine ⟨p, List.mem_cons_self, p.1.mem_set.mpr fun a => ?_⟩
      match a with
      | ⟨0, _⟩ =>
        have hy0 : (y (0 : Fin 2)).val < H := (y (0 : Fin 2)).isLt
        show ∃ j < p.1.size (0 : Fin 2), (y (0 : Fin 2)).val = p.1.off (0 : Fin 2) + p.1.stride (0 : Fin 2) * j
        exact ⟨(y (0 : Fin 2)).val, by rw [h1]; exact hy0, by rw [h0, h2]; omega⟩
      | ⟨1, _⟩ =>
        show ∃ j < p.1.size (1 : Fin 2), (y (1 : Fin 2)).val = p.1.off (1 : Fin 2) + p.1.stride (1 : Fin 2) * j
        exact ⟨(y (1 : Fin 2)).val - p.1.off (1 : Fin 2), by omega, by rw [h3]; omega⟩
    · obtain ⟨q, hq, hyq⟩ := cover_below L _ h5 y (by omega)
      exact ⟨q, List.mem_cons_of_mem _ hq, hyq⟩

/-- Strips lying side by side from column `W` down to column 0 cover the `H × W` buffer. -/
theorem cover_of_stripsDown (L : List (View.Piece Val ⟨2, ![H, W]⟩ e)) (h : stripsDown L W = true)
    (y : (⟨2, ![H, W]⟩ : Shape).Idx) : ∃ p ∈ L, y ∈ p.1.set :=
  cover_below L W h y (y (1 : Fin 2)).isLt

end Cert.LibStripCover
-- ==== Proof.Pairs.lean ====
/-
  The function both programs compute.

  For a batch of 64 feature vectors of 32 coordinates each, the second-order interaction is the list of the
  2016 = 64·63/2 inner products ⟨x_i, x_j⟩ with i < j, listed row by row: first the 63 products of row 0 with
  columns 1 … 63, then the 62 products of row 1 with columns 2 … 63, and so on down to the single product of
  row 62 with column 63.

  `triuRow p` and `triuCol p` are the row i and the column j of the p-th pair of that list. They are found by
  walking down the rows: row i holds 63 − i pairs; if p falls among them the pair is (i, i + 1 + p), and otherwise
  the walk goes on to row i + 1 with p reduced by 63 − i.

  `pairAt x b p` is the p-th product of batch entry b: the sum over the 32 coordinates d of
  x (b, i, d) · x (b, j, d), over the extended reals. `pairs x` is the whole result, batch entry by batch entry.
  The batch extent is a parameter, so that the same definition reads the whole array and a block of 256 batch entries.
-/
import Idealize.ShloMosaic.Lib.ValueIdx
import Idealize.ShloMosaic.PureOps.Ideal

noncomputable section

open scoped BigOperators

namespace Cert.Pairs

open Idealize.ShloMosaic Idealize.ShloMosaic.ValueIdx

/-- The walk down the rows of the strict upper triangle of a 64 × 64 matrix: with `f` rows still to try, standing at
    row `i` with `p` pairs still to skip, the pair reached. -/
def triuAux : ℕ → ℕ → ℕ → ℕ × ℕ
  | 0, i, p => (i, i + 1 + p)
  | f + 1, i, p => if p < 63 - i then (i, i + 1 + p) else triuAux f (i + 1) (p - (63 - i))

/-- The row of the `p`-th pair. -/
def triuRow (p : ℕ) : ℕ := (triuAux 63 0 p).1

/-- The column of the `p`-th pair. -/
def triuCol (p : ℕ) : ℕ := (triuAux 63 0 p).2

/-- Every one of the 2016 pairs lies inside the matrix, strictly above the diagonal. -/
theorem triu_lt : ∀ p : Fin 2016, triuRow p.val < triuCol p.val ∧ triuCol p.val < 64 := by decide +kernel

/-- The row of the `p`-th pair, as a row index of the matrix. -/
def rowOf (p : Fin 2016) : Fin 64 := ⟨triuRow p.val, (triu_lt p).1.trans (triu_lt p).2⟩

/-- The column of the `p`-th pair, as a column index of the matrix. -/
def colOf (p : Fin 2016) : Fin 64 := ⟨triuCol p.val, (triu_lt p).2⟩

theorem rowOf_val (p : Fin 2016) : (rowOf p).val = triuRow p.val := rfl
theorem colOf_val (p : Fin 2016) : (colOf p).val = triuCol p.val := rfl

/-- The `p`-th inner product of batch entry `b`: the sum over the 32 coordinates of the products of the two
    feature vectors' coordinates. -/
def pairAt {B : ℕ} (x : (⟨3, ![B, 64, 32]⟩ : Shape).Idx → EReal) (b : Fin B) (p : Fin 2016) : EReal :=
  ∑ d : Fin 32, x (ix3 b (rowOf p) d) * x (ix3 b (colOf p) d)

/-- All the inner products of all the batch entries. -/
def pairs {B : ℕ} (x : (⟨3, ![B, 64, 32]⟩ : Shape).Idx → EReal) : (⟨2, ![B, 2016]⟩ : Shape).Idx → EReal :=
  fun y => pairAt x (y 0) (y 1)

theorem pairs_ix2 {B : ℕ} (x : (⟨3, ![B, 64, 32]⟩ : Shape).Idx → EReal) (b : Fin B) (p : Fin 2016) :
    pairs x (ix2 b p) = pairAt x b p := rfl

end Cert.Pairs

end
-- ==== Proof.LibMatmulBatched.lean ====
/-
  The batched product of a B × M × K array with the TRANSPOSE, batch entry by batch entry, of a B × N × K array (the
  leading axis of both operands is the batch axis, both operands are contracted over their last axis) into the zero
  accumulator, read at an entry at the ideal values: the sum over the contracted coordinate of the products of the
  two rows' entries inside the same batch entry.
-/
import Idealize.ShloMosaic.Lib.ValueIdx
import Idealize.ShloMosaic.PureOps.Ideal.Laws

noncomputable section

open scoped BigOperators

namespace Cert.LibMatmulBatched

open Idealize.ShloMosaic Idealize.ShloMosaic.ValueIdx

/-- Entry (b, m, n) of the batched X·Yᵀ for X of B batch entries of M rows and Y of B batch entries of N rows, all
    rows of K columns: the sum over c of X (b, m, c) · Y (b, n, c). The contraction index has one axis, of extent K;
    the sum over it is re-indexed by that axis's coordinate, and the two operand indices are read coordinate by
    coordinate: the batch axis reads the result's first coordinate on both sides, the row axis of the left operand
    the second, the row axis of the right operand the third. -/
theorem matmul_batched_zero_apply {B M N K : ℕ} {φ₁ φ₂ : FTy}
    (w : DotDims.WF ⟨3, ![B, M, K]⟩ ⟨3, ![B, N, K]⟩ ⟨3, ![B, M, N]⟩ [2] [2] [1] [1] [0] [0])
    (prec : Option ContractPrecision) (X : FVec Ideal ⟨3, ![B, M, K]⟩ φ₁) (Y : FVec Ideal ⟨3, ![B, N, K]⟩ φ₂)
    (b : Fin B) (m : Fin M) (n : Fin N) :
    matmul (⟨[2], [2], [1], [1], [0], [0], w⟩ : DotDims _ _ _) prec X Y
        (constant (F := Ideal) ⟨3, ![B, M, N]⟩ .f32 0x00000000#32) (ix3 b m n)
      = ∑ c : Fin K, X (ix3 b m c) * Y (ix3 b n c) := by
  show FloatOps.matmul _ prec X Y _ (ix3 b m n) = _
  rw [Ideal.matmul_constant_zero_apply,
    ← Equiv.sum_comp (contrEquiv1 (⟨[2], [2], [1], [1], [0], [0], w⟩ : DotDims _ _ _) K rfl rfl).symm]
  refine Finset.sum_congr rfl fun c _ => ?_
  have c2 := contrEquiv1_symm_val
    (⟨[2], [2], [1], [1], [0], [0], w⟩ : DotDims ⟨3, ![B, M, K]⟩ ⟨3, ![B, N, K]⟩ ⟨3, ![B, M, N]⟩) K rfl rfl c
  have l2 : (⟨[2], [2], [1], [1], [0], [0], w⟩ : DotDims ⟨3, ![B, M, K]⟩ ⟨3, ![B, N, K]⟩ ⟨3, ![B, M, N]⟩).lhsIdx
      (ix3 b m n) ((contrEquiv1 _ K rfl rfl).symm c) = ix3 b m c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [2], [1], [1], [0], [0], w⟩ : DotDims ⟨3, ![B, M, K]⟩ ⟨3, ![B, N, K]⟩ ⟨3, ![B, M, N]⟩).rhsIdx
      (ix3 b m n) ((contrEquiv1 _ K rfl rfl).symm c) = ix3 b n c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c2
  rw [l2, r2]

end Cert.LibMatmulBatched

end
-- ==== Proof.KernelPiece.lean ====
/-
  One row of the strict upper triangle of the Gram matrix, as the kernel stores it.

  The kernel computes, for each of the 256 batch entries b of a block, the 64 × 64 Gram matrix
  g (b, i, j) = ∑ d, x (b, i, d) · x (b, j, d), and then copies the part of row i that lies to the right of the
  diagonal — the w = 63 − i entries g (b, i, j0), …, g (b, i, j0 + w − 1) with j0 = i + 1 — to the w consecutive
  columns off, …, off + w − 1 of the 256 × 2016 result. The copy is a slice of the three-axis array (one row, w columns)
  with its unit axis dropped.

  This module reads that copy at an entry, for ANY row i, first column j0, width w and column offset off: entry (b, k)
  of the copied piece is g (b, i, j0 + k), it lands in column off + k of the result, and, if the (off + k)-th pair of
  the triangle's row-by-row list is the pair (i, j0 + k) for every k < w, it is the (off + k)-th inner product of batch
  entry b. No property of the extended reals is used: both sides are literally the same sum.
-/
import proofs.«176899_j28930899706274_2_alg».proof.Proof.Pairs
import proofs.«176899_j28930899706274_2_alg».proof.Proof.LibMatmulBatched
import Idealize.ShloMosaic.Lib.Pipeline.Value
import Idealize.ShloMosaic.Lib.ValueIdx

noncomputable section

open scoped BigOperators

namespace Cert.KernelIdeal.Piece

open Idealize.ShloMosaic Idealize.ShloMosaic.ValueIdx

/-- The w entries of row i of each 64 × 64 matrix from column j0 on, as a 256 × w array (the slice of one row, its
    unit axis dropped), read at (b, k): the matrix entry (b, i, j0 + k). Dropping the unit axis keeps the row-major
    position, (b · 1 + 0) · w + k = b · w + k; the slice shifts each coordinate by its offset. -/
theorem row_slice_apply {α : Type} (w i j0 : ℕ) (hi : i < 64) (hj : j0 + w ≤ 64)
    (v : (⟨3, ![256, 64, 64]⟩ : Shape).Idx → α)
    (hs : (⟨3, ![256, 64, 64]⟩ : Shape).Slices ![0, i, j0] ⟨3, ![256, 1, w]⟩)
    (hc : (⟨3, ![256, 1, w]⟩ : Shape).ShapeCasts ⟨2, ![256, w]⟩)
    (b : Fin 256) (k : Fin w) :
    shapeCast ⟨2, ![256, w]⟩ (extractStridedSlice ⟨3, ![256, 1, w]⟩ ![0, i, j0] v hs) hc (ix2 b k)
      = v (ix3 b ⟨i, hi⟩ ⟨j0 + k.val, by have := k.isLt; omega⟩) := by
  refine (shapeCast_apply _ hc (ix2 b k) (ix3 b (0 : Fin 1) k) ?_).trans ?_
  · rw [Shape.rowMajor_val_three, Shape.rowMajor_val_two]
    show (b.val * 1 + 0) * w + k.val = b.val * w + k.val
    rw [Nat.mul_one, Nat.add_zero]
  · refine extractStridedSlice_apply _ v hs _ _ fun a => ?_
    match a with
    | ⟨0, _⟩ => show b.val = 0 + b.val; omega
    | ⟨1, _⟩ => show i = i + 0; omega
    | ⟨2, _⟩ => rfl

/-- Where entry (b, k) of a 256 × w piece stored at columns off, …, off + w − 1 lands in the 256 × 2016 result:
    row b, column off + k (each coordinate is the offset plus the coordinate inside the piece). -/
theorem emb_unit_ix2 (w off : ℕ) (hoff : off + w ≤ 2016)
    (inb : ∀ a, (![0, off] : Fin 2 → ℕ) a + (⟨2, ![256, w]⟩ : Shape).size a ≤ (⟨2, ![256, 2016]⟩ : Shape).size a)
    (b : Fin 256) (k : Fin w) :
    (Rect.unit (s := ⟨2, ![256, 2016]⟩) ![0, off] (⟨2, ![256, w]⟩ : Shape).size inb).emb (ix2 b k)
      = ix2 b (⟨off + k.val, by have := k.isLt; omega⟩ : Fin 2016) := by
  funext a; apply Fin.ext
  match a with
  | ⟨0, _⟩ => show 0 + 1 * b.val = b.val; omega
  | ⟨1, _⟩ => show off + 1 * k.val = off + k.val; omega

/-- The piece of row i stored at column offset off is the block of inner products it covers: if the pairs number
    off, …, off + w − 1 of the triangle's list are (i, j0), …, (i, j0 + w − 1), then entry (b, k) of the piece — the
    Gram entry (b, i, j0 + k) = ∑ d, x (b, i, d) · x (b, j0 + k, d) — is the (off + k)-th inner product of batch entry b,
    which is what the specification has at the place (b, off + k) where the entry lands. -/
theorem piece_eq (w i j0 off : ℕ) (hi : i < 64) (hj : j0 + w ≤ 64) (hoff : off + w ≤ 2016)
    (ht : ∀ k : Fin w, Cert.Pairs.triuRow (off + k.val) = i ∧ Cert.Pairs.triuCol (off + k.val) = j0 + k.val)
    (wf : DotDims.WF ⟨3, ![256, 64, 32]⟩ ⟨3, ![256, 64, 32]⟩ ⟨3, ![256, 64, 64]⟩ [2] [2] [1] [1] [0] [0])
    (x0 : (⟨3, ![256, 64, 32]⟩ : Shape).Idx → EReal)
    (hs : (⟨3, ![256, 64, 64]⟩ : Shape).Slices ![0, i, j0] ⟨3, ![256, 1, w]⟩)
    (hc : (⟨3, ![256, 1, w]⟩ : Shape).ShapeCasts ⟨2, ![256, w]⟩)
    (inb : ∀ a, (![0, off] : Fin 2 → ℕ) a + (⟨2, ![256, w]⟩ : Shape).size a ≤ (⟨2, ![256, 2016]⟩ : Shape).size a)
    (x : (⟨2, ![256, w]⟩ : Shape).Idx) :
    shapeCast ⟨2, ![256, w]⟩ (extractStridedSlice ⟨3, ![256, 1, w]⟩ ![0, i, j0]
        (matmul (F := Ideal) (φ₁ := .f32) (φ₂ := .f32) (⟨[2], [2], [1], [1], [0], [0], wf⟩ : DotDims _ _ _) none x0 x0
          (constant (F := Ideal) ⟨3, ![256, 64, 64]⟩ .f32 0x00000000#32)) hs) hc x
      = Cert.Pairs.pairs x0
          ((Rect.unit (s := ⟨2, ![256, 2016]⟩) ![0, off] (⟨2, ![256, w]⟩ : Shape).size inb).emb x) := by
  obtain ⟨b, k, rfl⟩ : ∃ (b : Fin 256) (k : Fin w), x = ix2 b k := ⟨x 0, x 1, eq_ix2 x⟩
  rw [emb_unit_ix2 w off hoff inb b k, Cert.Pairs.pairs_ix2]
  refine (row_slice_apply w i j0 hi hj _ hs hc b k).trans ?_
  refine (Cert.LibMatmulBatched.matmul_batched_zero_apply (φ₁ := .f32) (φ₂ := .f32) wf none x0 x0 b ⟨i, hi⟩
    ⟨j0 + k.val, by have := k.isLt; omega⟩).trans ?_
  have hr : Cert.Pairs.rowOf (⟨off + k.val, by have := k.isLt; omega⟩ : Fin 2016) = ⟨i, hi⟩ := Fin.ext (ht k).1
  have hcol : Cert.Pairs.colOf (⟨off + k.val, by have := k.isLt; omega⟩ : Fin 2016)
      = ⟨j0 + k.val, by have := k.isLt; omega⟩ := Fin.ext (ht k).2
  unfold Cert.Pairs.pairAt
  rw [hr, hcol]

end Cert.KernelIdeal.Piece

end
-- ==== Proof.KernelBlock.lean ====
/-
  What the kernel's body leaves in the output block, as a function of the input block it loaded.

  The body multiplies the loaded 256 × 64 × 32 block with itself, batch entry by batch entry, into the 64 × 64 Gram
  matrices g (b, i, j) = ∑ d, x (b, i, d) · x (b, j, d), and then makes 63 stores: for i = 0, …, 62 the 63 − i entries
  of row i to the right of the diagonal go to the next 63 − i columns of the 256 × 2016 output block (column offsets
  0, 63, 125, …, 2015). These 63 pieces tile the block, and every one of them is the specification's block restricted
  to the columns it covers: the p-th column holds the p-th inner product ⟨x_i, x_j⟩, i < j, of the row-by-row list.
  So the block the body leaves is the list of all 2016 inner products of each of the 256 batch entries.

  Each piece is one instance of the same fact (the piece lemma of the module on one row of the triangle), at the
  literal row, width and column offset of its store; which pairs its columns hold is decided by running the walk down
  the triangle's rows on those literals.
-/
import proofs.«176899_j28930899706274_2_alg».proof.Proof.KernelIdealFrameP
import proofs.«176899_j28930899706274_2_alg».proof.Proof.Pairs
import proofs.«176899_j28930899706274_2_alg».proof.Proof.KernelPiece
import Idealize.ShloMosaic.Lib.Pipeline.Value
import Idealize.ShloMosaic.Lib.ValueIdx

set_option maxRecDepth 16384

noncomputable section

namespace Cert.KernelIdeal.Block

open Cert.KernelIdeal Cert.KernelIdeal.Gen Cert.KernelIdeal.GenP Idealize.ShloMosaic Idealize.ShloMosaic.ValueIdx Idealize.ShloMosaic.Tactic

/-- The zero offsets of a three-axis array. -/
theorem zero_offsets : (![0, 0, 0] : Fin 3 → Nat) = fun _ => 0 := funext fun a => by fin_cases a <;> rfl

/-- The body's one load reads the whole input buffer: what it reads is the block the buffer holds. -/
theorem load_whole (arg1 : Memref sig .tc .vmem S256x64x32 .f32) (harg1 : arg1.IsWhole) (x0 : Vec Ideal S256x64x32 .f32)
    (inb : ∀ a, (![0, 0, 0] : Fin 3 → ℕ) a + S256x64x32.size a ≤ S256x64x32.size a) :
    View.readAt (Elt Ideal) arg1.view (Rect.unit ![0, 0, 0] S256x64x32.size inb).toLoadRect (harg1.unread x0) = x0 := by
  rw [View.readAt_eq_ld, harg1.read_unread, View.ld_unit_zero zero_offsets]

/-- One store: its value, opened to the slice of the product it is, is the piece lemma at the store's literal row,
    first column, width and column offset; the bounds are arithmetic on those literals, and the pairs its columns
    hold are found by running the walk down the rows. -/
macro "piece" : tactic => `(tactic| (
  intro x
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  exact Cert.KernelIdeal.Piece.piece_eq _ _ _ _ (by omega) (by omega) (by omega) (by decide +kernel) _ _ _ _ _ x))

/-- Every one of the 63 stores writes the specification's values at the places it covers. -/
theorem pieces (c : Dev nD) (i : grid0.Coords) (arg1 : Memref sig .tc .vmem S256x64x32 .f32) (harg1 : arg1.IsWhole)
    (arg2 : Memref sig .tc .vmem S256x2016 .f32) (harg2 : arg2.IsWhole) (x0 : Vec Ideal S256x64x32 .f32) :
    ∀ p ∈ (kernelRun0_A (F := Ideal) c i arg1 harg1 arg2 harg2 x0).1,
      ∀ x : p.1.shape.Idx, p.2 x = Cert.Pairs.pairs x0 (p.1.emb x) := by
  unfold kernelRun0_A
  dsimp only
  sl_unfold_words
  rw [load_whole arg1 harg1 x0]
  repeat (refine List.forall_mem_cons.2 ⟨by piece, ?_⟩)
  exact List.forall_mem_nil _

/-- The output block after the body: the 2016 inner products of each of the block's 256 batch entries. The stores
    are read back over an unwritten buffer; since they cover every place of the block and each writes the
    specification's values, what is read is the specification. -/
theorem out_eq (c : Dev nD) (i : grid0.Coords) (arg1 : Memref sig .tc .vmem S256x64x32 .f32) (harg1 : arg1.IsWhole)
    (arg2 : Memref sig .tc .vmem S256x2016 .f32) (harg2 : arg2.IsWhole) (x0 : Vec Ideal S256x64x32 .f32) :
    GenP.out0_A_1 (F := Ideal) c i arg1 harg1 arg2 harg2 x0 = Cert.Pairs.pairs x0 := by
  unfold GenP.out0_A_1
  rw [View.read_writes_junk_eq_canon]
  funext y
  exact View.canon_apply_of_pieces (Cert.Pairs.pairs x0) _ (pieces c i arg1 harg1 arg2 harg2 x0) y
    (GenP.cover0_A_1 c i arg1 harg1 arg2 harg2 x0 y)

end Cert.KernelIdeal.Block

end
-- ==== Proof.KernelArray.lean ====
/-
  From blocks to the whole array.

  The grid has 32 points. At point t the kernel's body is handed rows 256·t … 256·t + 255 of the input (all 64 features, all 32
  coordinates) and its result is written back to rows 256·t … 256·t + 255 of the output (all 2016 columns). The body's result on a
  block is the list of pairwise inner products of each of the block's batch entries, and an inner product of batch entry b only
  reads batch entry b; so what point t writes back is rows 256·t … 256·t + 255 of the pairwise inner products of the whole
  input. The 32 row blocks cover the output, so after the run the output array holds the pairwise inner products of the input.
-/
import proofs.«176899_j28930899706274_2_alg».proof.Proof.KernelIdealFrameP
import proofs.«176899_j28930899706274_2_alg».proof.Proof.Pairs
import Idealize.ShloMosaic.Lib.Pipeline.Value
import proofs.«176899_j28930899706274_2_alg».proof.Proof.KernelBlock

set_option maxRecDepth 16384

noncomputable section

open scoped BigOperators

namespace Cert.KernelIdeal.Whole

open Cert.KernelIdeal Cert.KernelIdeal.Gen Cert.KernelIdeal.GenP Idealize.ShloMosaic Idealize.ShloMosaic.TcCoe Idealize.SL.Sem
open Idealize.ShloMosaic.ValueIdx Cert.Pairs
open Idealize.ShloMosaic.Pipeline (Dat)

variable (m : (ℓ : Loc nD τ sig) → Buf (Elt Ideal) ℓ) (ρ : Dev nD → PrngReg)

/-- An inner product of batch entry `b` reads only batch entry `b`: if batch entry `b'` of `Y` is batch entry `b` of `X`,
    their inner products agree. -/
theorem pairAt_congr {B B' : ℕ} (X : (⟨3, ![B, 64, 32]⟩ : Shape).Idx → EReal) (Y : (⟨3, ![B', 64, 32]⟩ : Shape).Idx → EReal)
    (b : Fin B) (b' : Fin B') (p p' : Fin 2016) (hp : p' = p)
    (h : ∀ (r : Fin 64) (d : Fin 32), Y (ix3 b' r d) = X (ix3 b r d)) : pairAt Y b' p' = pairAt X b p := by
  subst hp
  unfold pairAt
  exact Finset.sum_congr rfl fun d _ => by rw [h, h]

/-- The two windows' block indices over the grid: the input's block moves down the batch axis with the output's, and
    neither moves along another axis. -/
theorem idx_facts : ∀ t : Fin cfg0.N,
    win0_0.index t (0 : Fin 3) = win0_1.index t (0 : Fin 2) ∧ win0_0.index t (1 : Fin 3) = 0 ∧ win0_0.index t (2 : Fin 3) = 0
    ∧ win0_1.index t (1 : Fin 2) = 0 ∧ win0_1.index t (0 : Fin 2) ≤ 31 :=
  (by decide +kernel : ∀ t : Fin grid0.N, _)

/-- Every one of the 32 row blocks of the output is some point's. -/
theorem idx_onto : ∀ q : Fin 32, ∃ t : Fin cfg0.N, win0_1.index t = ![q.val, 0] :=
  (by decide +kernel : ∀ q : Fin 32, ∃ t : Fin grid0.N, win0_1.index t = ![q.val, 0])

/-- What point `t` writes back to the output is the body's result on the point's input block, read through the block. -/
theorem flushed_body (c : Dev nD) (t : Fin cfg0.N) :
    (dats m 0 c).flushed 1 t
      = (cfg0.win 1).cut (grid0.coords t) (out0_A_1 c (grid0.coords t) (ms0_0 t) (hs0_0 t) (ms0_1 t) (hs0_1 t) (iblk m c 0 t)) := by
  show (cfg0.win 1).cut (grid0.coords t) ((dats m 0 c).after 1 t) = _
  rw [after0_1]
  rfl

/-- The input block at point `t`, read at batch entry `b` of the block, is the input array at batch entry
    `256 · (the output's block index) + b`. -/
theorem iblk_apply (c : Dev nD) (t : Fin cfg0.N) (b : Fin 256) (r : Fin 64) (d : Fin 32) (b8 : Fin 8192)
    (hb : b8.val = win0_1.index t (0 : Fin 2) * 256 + b.val) :
    iblk m c 0 t (ix3 b r d) = V m c main_arg0 (ix3 b8 r d) := by
  obtain ⟨e0, e1, e2, e3, e4⟩ := idx_facts t
  show V m c main_arg0 (((cfg0.win 0).blk t).view.emb (ix3 b r d)) = V m c main_arg0 (ix3 b8 r d)
  refine congrArg (V m c main_arg0) (funext fun a => Fin.ext ?_)
  match a with
  | ⟨0, _⟩ => show win0_0.index t (0 : Fin 3) * 256 + 1 * b.val = b8.val; omega
  | ⟨1, _⟩ => show win0_0.index t (1 : Fin 3) * 64 + 1 * r.val = r.val; omega
  | ⟨2, _⟩ => show win0_0.index t (2 : Fin 3) * 32 + 1 * d.val = d.val; omega

/-- What point `t` writes back is block `t` of the pairwise inner products of the whole input. -/
theorem flushed_eq (c : Dev nD) (t : Fin cfg0.N) :
    (dats m 0 c).flushed 1 t
      = ((cfg0.win 1).blk t).view.read (Elt Ideal) (pairs (B := 8192) (V m c main_arg0)) := by
  rw [flushed_body, Cert.KernelIdeal.Block.out_eq]
  obtain ⟨e0, e1, e2, e3, e4⟩ := idx_facts t
  funext j
  show pairAt (B := 256) (iblk m c 0 t) ⟨(j 0).val, (j 0).isLt⟩ ⟨(j 1).val, (j 1).isLt⟩
      = pairAt (B := 8192) (V m c main_arg0) ((((cfg0.win 1).blk t).view.emb j) 0) ((((cfg0.win 1).blk t).view.emb j) 1)
  refine pairAt_congr _ _ _ _ _ _ (Fin.ext ?_) (fun r d => iblk_apply m c t _ r d _ ?_)
  · show (j 1).val = win0_1.index t (1 : Fin 2) * 2016 + 1 * (j 1).val
    omega
  · show win0_1.index t (0 : Fin 2) * 256 + 1 * (j 0).val = win0_1.index t (0 : Fin 2) * 256 + (j 0).val
    omega

/-- An index of the output array is in point `t`'s block iff each coordinate is in the block's range on its axis. -/
theorem mem_blk (t : Fin cfg0.N) (i : S8192x2016.Idx) :
    i ∈ ((cfg0.win 1).blk t).view.set ↔ ∀ a : Fin 2, win0_1.index t a * S256x2016.size a ≤ (i a).val
      ∧ (i a).val < win0_1.index t a * S256x2016.size a + S256x2016.size a := by
  show i ∈ ((View.whole main_v0).slice (win0_1.rect t)).set ↔ _
  rw [View.set_slice_whole, Rect.mem_set_unit]
  exact Iff.rfl

/-- The 32 row blocks cover the output: row `b` lies in block `b / 256`. -/
theorem cover (i : S8192x2016.Idx) :
    ∃ t : Fin cfg0.N, (cfg0.win 1).flush t = true ∧ i ∈ ((cfg0.win 1).blk t).view.set := by
  have hi0 : (i 0).val < 8192 := (i 0).isLt
  have hi1 : (i 1).val < 2016 := (i 1).isLt
  obtain ⟨t, ht⟩ := idx_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 256 ≤ (i 0).val ∧ (i 0).val < win0_1.index t (0 : Fin 2) * 256 + 256
    omega
  | ⟨1, _⟩ =>
    show win0_1.index t (1 : Fin 2) * 2016 ≤ (i 1).val ∧ (i 1).val < win0_1.index t (1 : Fin 2) * 2016 + 2016
    omega

/-- After the run the output array holds the pairwise inner products of the input array. -/
theorem final (c : Dev nD) :
    (dats m 0 c).arrAt 1 cfg0.N = pairs (B := 8192) (m ((c : Thread nD τ).loc main_arg0)) :=
  (dats m 0 c).arrAt_eq_of_cover 1 (pairs (B := 8192) (V m c main_arg0)) (fun t _ => flushed_eq m c t) cover

/-- The kernel's run, read: every weakly fair execution terminates with the output array at the pairwise inner products of
    the input array and the input array unchanged. -/
theorem run : θ_run defs (onTc (τ := τ) (main (F := Ideal))) ⟨m, fun _ => 0, ρ⟩ fun r => ∀ c : Dev nD,
      r.2.mem ((c : Thread nD τ).loc main_v0) = pairs (B := 8192) (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Whole

end
-- ==== Proof.RefRun.lean ====
/-
  The reference program's run, read back.

  The reference is a straight line of 17 host operations: two literal tables of 2016 words each (the rows and the
  columns of the pairs i < j of a 64 × 64 matrix, listed row by row), the batched product of the input with itself
  along its last axis (for each batch entry the 64 × 64 matrix of inner products), the two tables passed through
  a selection on a constant-false condition (the normalisation of negative indices, which never applies), set side by
  side as the two columns of a 2016 × 2 table of index pairs, and the gather of the matrix entries at those pairs.

  `result x` is the composed term of the 17 operations applied to the input `x`, with the tables left closed.
  `run`: every weakly fair execution of the program ends, with the result buffer holding `result` of the input's
  contents at launch and the input unchanged.
-/
import proofs.«176899_j28930899706274_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's 17 operations, in order. -/
abbrev ops : List (HloOp τ sig (Elt F)) :=
  [
    nullary main_c (fun i => lit0 (S2016.rowMajor i)),
    nullary main_c_0 (constantI S2016 1 0#1),
    nullary main_c_1 (fun i => lit1 (S2016.rowMajor i)),
    nullary main_c_2 (constantI S2016 1 0#1),
    binary main_arg0 main_arg0 main_v0 ((fun l r => Host.dotGeneral dot_S8192x64x32_S8192x64x32_S8192x64x64_2_2_1_1_0_0 none l r) : (⟨S8192x64x32, .f32⟩ : BufTy).Contents (Elt F) → (⟨S8192x64x32, .f32⟩ : BufTy).Contents (Elt F) → (⟨S8192x64x64, .f32⟩ : BufTy).Contents (Elt F)),
    nullary main_c_3 (constantI S_ 32 64#32),
    unary main_c_3 main_v1 (broadcastInDim S2016 ![] bcast_S_S2016 : (⟨S_, .i32⟩ : BufTy).Contents (Elt F) → (⟨S2016, .i32⟩ : BufTy).Contents (Elt F)),
    binary main_c main_v1 main_v2 (addi : (⟨S2016, .i32⟩ : BufTy).Contents (Elt F) → (⟨S2016, .i32⟩ : BufTy).Contents (Elt F) → (⟨S2016, .i32⟩ : BufTy).Contents (Elt F)),
    ternary main_c_0 main_v2 main_c main_v3 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_4 (constantI S_ 32 64#32),
    unary main_c_4 main_v4 (broadcastInDim S2016 ![] bcast_S_S2016 : (⟨S_, .i32⟩ : BufTy).Contents (Elt F) → (⟨S2016, .i32⟩ : BufTy).Contents (Elt F)),
    binary main_c_1 main_v4 main_v5 (addi : (⟨S2016, .i32⟩ : BufTy).Contents (Elt F) → (⟨S2016, .i32⟩ : BufTy).Contents (Elt F) → (⟨S2016, .i32⟩ : BufTy).Contents (Elt F)),
    ternary main_c_2 main_v5 main_c_1 main_v6 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v3 main_v7 (broadcastInDim S2016x1 ![0] bcast_S2016_S2016x1_0 : (⟨S2016, .i32⟩ : BufTy).Contents (Elt F) → (⟨S2016x1, .i32⟩ : BufTy).Contents (Elt F)),
    unary main_v6 main_v8 (broadcastInDim S2016x1 ![0] bcast_S2016_S2016x1_0 : (⟨S2016, .i32⟩ : BufTy).Contents (Elt F) → (⟨S2016x1, .i32⟩ : BufTy).Contents (Elt F)),
    binary main_v7 main_v8 main_v9 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v9 main_v10 ((fun x i => Host.gather gather_S8192x64x64_S2016x2_S8192x2016_0_12_n_n_12_1_819211 x i) : (⟨S8192x64x64, .f32⟩ : BufTy).Contents (Elt F) → (⟨S2016x2, .i32⟩ : BufTy).Contents (Elt F) → (⟨S8192x2016, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., binary_bufs_sub ..⟩

/-- The words of the first table (the rows of the pairs), as the contents of its buffer. -/
def rowWords : IVec S2016 32 := fun i => lit0 (S2016.rowMajor i)

/-- The words of the second table (the columns of the pairs), as the contents of its buffer. -/
def colWords : IVec S2016 32 := fun i => lit1 (S2016.rowMajor i)

/-- One column of the table of index pairs, from one table of words `t`: the selection, on the constant-false
    condition, between `t + 64` and `t`, as a one-column matrix. -/
def indexColumn (t : IVec S2016 32) : IVec S2016x1 32 :=
  broadcastInDim S2016x1 ![0] bcast_S2016_S2016x1_0
    (select (constantI S2016 1 0#1) (addi t (broadcastInDim S2016 ![] bcast_S_S2016 (constantI S_ 32 64#32))) t)

/-- The 2016 × 2 table of index pairs: the rows' column beside the columns' column. -/
def indexPairs : IVec S2016x2 32 :=
  concatenate S2016x2 1 [⟨S2016x1, indexColumn rowWords⟩, ⟨S2016x1, indexColumn colWords⟩]
    concatenates_S2016x1_S2016x1_S2016x2_d1

/-- The composed term of the program's operations: the gather, at the index pairs, of the batched product of the
    input with itself. -/
def result (x : FVec F S8192x64x32 .f32) : FVec F S8192x2016 .f32 :=
  Host.gather gather_S8192x64x64_S2016x2_S8192x2016_0_12_n_n_12_1_819211
    (Host.dotGeneral dot_S8192x64x32_S8192x64x32_S8192x64x64_2_2_1_1_0_0 none x x) indexPairs

/-- The program ends on every weakly fair execution, whatever the float values and the memory it starts from
    (counters at zero); at the end the result buffer holds `result` of what the input buffer held at the start, and
    the input buffer holds what it held. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = result (m ((c.tc : Thread nD τ).loc main_arg0))
      ∧ r.2.mem ((c.tc : Thread nD τ).loc main_arg0) = m ((c.tc : Thread nD τ).loc main_arg0) :=
  (θ_run defs _ _).mono (fun _ h c => ⟨(h c main_v10).trans (by after_results <;> rfl),
      (h c main_arg0).trans (by after_results)⟩)
    (run_seq scopedRefs_eq scopedSems_eq defs main (fun _ => ops) main_eq (fun _ => ops_sub) m ρ)

end Cert.ReferenceIdeal.HandRun

end
-- ==== Proof.RefTables.lean ====
/-
  The two literal tables of the reference are the pairs i < j of a 64 × 64 matrix, listed row by row.

  Each table holds 2016 words. Read as a signed integer and clamped into the axis 0 … 63 — which is how a gather
  reads a start index — the q-th word of the first table is the row, and the q-th word of the second table the
  column, of the q-th pair of the walk down the rows of the strict upper triangle. Both facts are finite checks,
  entry by entry.
-/
import proofs.«176899_j28930899706274_2_alg».proof.ReferenceIdeal
import proofs.«176899_j28930899706274_2_alg».proof.Proof.Pairs

namespace Cert.ReferenceIdeal.HandTables

open Cert.ReferenceIdeal Cert.Pairs

/-- The q-th word of the first table, read as a start index into an axis of extent 64, is the row of the q-th pair. -/
theorem rows_eq : ∀ q : Fin 2016, min (lit0 q).toInt.toNat 63 = triuRow q.val := by decide +kernel

/-- The q-th word of the second table, read as a start index into an axis of extent 64, is the column of the q-th pair. -/
theorem cols_eq : ∀ q : Fin 2016, min (lit1 q).toInt.toNat 63 = triuCol q.val := by decide +kernel

end Cert.ReferenceIdeal.HandTables
-- ==== Proof.LibGatherPair.lean ====
/-
  One element per batch row of a rank-three array, picked by a pair of start indices.

  The operand has shape `[B, N, P]`, the start indices `[R, 2]` and the result `[B, R]`: result element `(b, q)` is
  the operand at `(b, idx[q, 0], idx[q, 1])`, each component of the start index read as a signed integer and clamped
  into its axis. The first operand axis is kept whole (an offset axis), the other two are collapsed.
-/
import Idealize.ShloMosaic.PureOps.Ideal
import Idealize.ShloMosaic.Lib.ValueIdx

noncomputable section

namespace Cert.LibGatherPair

open Idealize.ShloMosaic Idealize.ShloMosaic.ValueIdx

variable {α : Type}

/-- The dimension numbers: offset axis `[0]`, collapsed axes `[1, 2]`, start index map `[1, 2]`, the index vector on
    axis 1 of the start indices, slices of sizes `[B, 1, 1]`. -/
abbrev pairDims (B N P R : Nat)
    (wf : GatherDims.WF ⟨3, ![B, N, P]⟩ ⟨2, ![R, 2]⟩ ⟨2, ![B, R]⟩ [0] [1, 2] [] [1, 2] [] 1 ![B, 1, 1]) :
    GatherDims ⟨3, ![B, N, P]⟩ ⟨2, ![R, 2]⟩ ⟨2, ![B, R]⟩ where
  offsetDims := [0]
  collapsedSliceDims := [1, 2]
  operandBatchingDims := []
  startIndicesBatchingDims := []
  startIndexMap := [1, 2]
  indexVectorDim := 1
  sliceSizes := ![B, 1, 1]
  wf := wf

/-- The gather read at `(b, q)`. -/
theorem gather_pair_apply {B N P R w : Nat} (hN : 0 < N) (hP : 0 < P)
    (wf : GatherDims.WF ⟨3, ![B, N, P]⟩ ⟨2, ![R, 2]⟩ ⟨2, ![B, R]⟩ [0] [1, 2] [] [1, 2] [] 1 ![B, 1, 1])
    (x : (⟨3, ![B, N, P]⟩ : Shape).Idx → α) (idx : IVec ⟨2, ![R, 2]⟩ w) (b : Fin B) (q : Fin R) :
    Host.gather (pairDims B N P R wf) x idx (ix2 b q)
      = x (ix3 b ⟨min (idx (ix2 q (0 : Fin 2))).toInt.toNat (N - 1), by omega⟩
                 ⟨min (idx (ix2 q (1 : Fin 2))).toInt.toNat (P - 1), by omega⟩) := by
  have k0 : (pairDims B N P R wf).start (ix2 b q) idx (0 : Fin 3) + (pairDims B N P R wf).batchCoord (ix2 b q) (0 : Fin 3)
      + (pairDims B N P R wf).offCoord (ix2 b q) (0 : Fin 3) = b.val := by
    rw [GatherDims.batchCoord_eq_zero _ _ _ List.not_mem_nil]
    unfold GatherDims.start
    rw [dif_neg (show (0 : Fin 3) ∉ (pairDims B N P R wf).startIndexMap by simp)]
    unfold GatherDims.offCoord
    rw [dif_pos (show (0 : Fin 3) ∈ (pairDims B N P R wf).sKept from
      (GatherDims.mem_sKept _ _).mpr ⟨by simp, List.not_mem_nil⟩)]
    simp only [Nat.zero_add, Nat.add_zero]
    rfl
  have k1 : (pairDims B N P R wf).start (ix2 b q) idx (1 : Fin 3) + (pairDims B N P R wf).batchCoord (ix2 b q) (1 : Fin 3)
      + (pairDims B N P R wf).offCoord (ix2 b q) (1 : Fin 3) = min (idx (ix2 q (0 : Fin 2))).toInt.toNat (N - 1) := by
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (1 : Fin 3) ∈ (pairDims B N P R wf).startIndexMap by simp)]
    have hsi : (pairDims B N P R wf).siIdx (ix2 b q) ⟨List.idxOf (1 : Fin 3) (pairDims B N P R wf).startIndexMap,
        List.idxOf_lt_length_iff.2 (by simp)⟩ = ix2 q (0 : Fin 2) := by
      funext c; refine Fin.ext ?_
      match c with
      | ⟨0, _⟩ => rfl
      | ⟨1, _⟩ => rfl
    rw [hsi]
    rfl
  have k2 : (pairDims B N P R wf).start (ix2 b q) idx (2 : Fin 3) + (pairDims B N P R wf).batchCoord (ix2 b q) (2 : Fin 3)
      + (pairDims B N P R wf).offCoord (ix2 b q) (2 : Fin 3) = min (idx (ix2 q (1 : Fin 2))).toInt.toNat (P - 1) := by
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (2 : Fin 3) ∈ (pairDims B N P R wf).startIndexMap by simp)]
    have hsi : (pairDims B N P R wf).siIdx (ix2 b q) ⟨List.idxOf (2 : Fin 3) (pairDims B N P R wf).startIndexMap,
        List.idxOf_lt_length_iff.2 (by simp)⟩ = ix2 q (1 : Fin 2) := by
      funext c; refine Fin.ext ?_
      match c with
      | ⟨0, _⟩ => rfl
      | ⟨1, _⟩ => rfl
    rw [hsi]
    rfl
  have key : ∀ a : Fin 3, (pairDims B N P R wf).start (ix2 b q) idx a + (pairDims B N P R wf).batchCoord (ix2 b q) a
      + (pairDims B N P R wf).offCoord (ix2 b q) a
      = ((ix3 b (⟨min (idx (ix2 q (0 : Fin 2))).toInt.toNat (N - 1), by omega⟩ : Fin N)
               (⟨min (idx (ix2 q (1 : Fin 2))).toInt.toNat (P - 1), by omega⟩ : Fin P)) a).val := by
    intro a
    match a with
    | ⟨0, _⟩ => exact k0
    | ⟨1, _⟩ => exact k1
    | ⟨2, _⟩ => exact k2
  unfold Host.gather
  exact congrArg x (funext fun a => Fin.ext (key a))

end Cert.LibGatherPair

end
-- ==== Proof.LibBatchDot.lean ====
/-
  The host's batched dot product of two rank-three arrays, read at one entry.

  For `A : [B, N, K]` and `C : [B, P, K]` with the first axes a batch axis and both last axes contracted, the entry
  `(b, n, p)` of the product is the sum over the contracted coordinate `d` of `A (b, n, d) * C (b, p, d)`. Stated over
  the extended reals, for any extents and any proof that the dimension numbers are well formed.
-/
import Idealize.ShloMosaic.Lib.ValueIdx
import Idealize.ShloMosaic.PureOps.Ideal.Laws

noncomputable section

open scoped BigOperators

namespace Cert.LibBatchDot

open Idealize.ShloMosaic Idealize.ShloMosaic.ValueIdx

/-- The batched product at entry `(b, n, p)`: the contraction index has one axis, of extent `K`; the sum over it is
    re-indexed by that axis's coordinate and the two operand indices are read coordinate by coordinate. -/
theorem dotGeneral_batch_apply {B N P K : ℕ} {φ₁ φ₂ : FTy}
    (w : DotDims.WF ⟨3, ![B, N, K]⟩ ⟨3, ![B, P, K]⟩ ⟨3, ![B, N, P]⟩ [2] [2] [1] [1] [0] [0])
    (prec : Option ContractPrecision) (A : FVec Ideal ⟨3, ![B, N, K]⟩ φ₁) (C : FVec Ideal ⟨3, ![B, P, K]⟩ φ₂)
    (b : Fin B) (n : Fin N) (p : Fin P) :
    Host.dotGeneral (F := Ideal) (⟨[2], [2], [1], [1], [0], [0], w⟩ : DotDims _ _ _) prec A C (ix3 b n p)
      = ∑ d : Fin K, A (ix3 b n d) * C (ix3 b p d) := by
  simp only [Host.dotGeneral]
  rw [Ideal.dotGeneral_apply,
    ← Equiv.sum_comp (contrEquiv1 (⟨[2], [2], [1], [1], [0], [0], w⟩ : DotDims _ _ _) K rfl rfl).symm]
  refine Finset.sum_congr rfl fun c _ => ?_
  have c2 := contrEquiv1_symm_val
    (⟨[2], [2], [1], [1], [0], [0], w⟩ : DotDims ⟨3, ![B, N, K]⟩ ⟨3, ![B, P, K]⟩ ⟨3, ![B, N, P]⟩) K rfl rfl c
  have l2 : (⟨[2], [2], [1], [1], [0], [0], w⟩ : DotDims ⟨3, ![B, N, K]⟩ ⟨3, ![B, P, K]⟩ ⟨3, ![B, N, P]⟩).lhsIdx (ix3 b n p)
      ((contrEquiv1 _ K rfl rfl).symm c) = ix3 b n c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [2], [1], [1], [0], [0], w⟩ : DotDims ⟨3, ![B, N, K]⟩ ⟨3, ![B, P, K]⟩ ⟨3, ![B, N, P]⟩).rhsIdx (ix3 b n p)
      ((contrEquiv1 _ K rfl rfl).symm c) = ix3 b p c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c2
  rw [l2, r2]

end Cert.LibBatchDot

end
-- ==== Proof.LibHostIx.lean ====
/-
  Host operations on literal-shaped arrays read at one index, for any extents.

  Layout: two matrices stacked by rows; a scalar, a column, a row and a vector broadcast to a larger array;
  a unit-stride slice of a vector. Arithmetic at the ideal values: the sum over each row of a matrix and
  the sum of a vector, each from an initial value; the product of a matrix with the transpose of another
  (both contracted along their second axis) at an entry; and the element of a matrix picked by a pair of
  start indices, each read as a signed integer and clamped into its axis. Words: the 32-bit word of a natural
  below 8192 under the signed remainder by 4096, when two such words are equal or negative, and a bit read as
  an unsigned integer at the ideal values.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RefValLib

open Idealize.ShloMosaic Idealize.ShloMosaic.ValueIdx

/-! ## Layout -/

section Layout
variable {α : Type}

/-- Stacked by rows, at a row below the first height: the first matrix at the same row and column. -/
theorem concatenate_rows_apply_left {A B T C : Nat}
    (x₁ : (⟨2, ![A, C]⟩ : Shape).Idx → α) (x₂ : (⟨2, ![B, C]⟩ : Shape).Idx → α)
    (h : Shape.Concatenates [⟨2, ![A, C]⟩, ⟨2, ![B, C]⟩] ⟨2, ![T, C]⟩ 0)
    (p : Fin T) (k : Fin C) (hp : p.val < A) :
    concatenate ⟨2, ![T, C]⟩ 0 [⟨⟨2, ![A, C]⟩, x₁⟩, ⟨⟨2, ![B, C]⟩, x₂⟩] h (ix2 p k)
      = x₁ (ix2 ⟨p.val, hp⟩ k) :=
  concatenate_pair_apply_left _ x₁ x₂ h (ix2 p k) rfl (ix2 ⟨p.val, hp⟩ k)
    (fun b => match b with | ⟨0, _⟩ => rfl | ⟨1, _⟩ => rfl)

/-- Stacked by rows, at row `A + p'`: the second matrix at row `p'` and the same column. -/
theorem concatenate_rows_apply_right {A B T C : Nat}
    (x₁ : (⟨2, ![A, C]⟩ : Shape).Idx → α) (x₂ : (⟨2, ![B, C]⟩ : Shape).Idx → α)
    (h : Shape.Concatenates [⟨2, ![A, C]⟩, ⟨2, ![B, C]⟩] ⟨2, ![T, C]⟩ 0)
    (p : Fin T) (k : Fin C) (p' : Fin B) (hp : p.val = A + p'.val) :
    concatenate ⟨2, ![T, C]⟩ 0 [⟨⟨2, ![A, C]⟩, x₁⟩, ⟨⟨2, ![B, C]⟩, x₂⟩] h (ix2 p k)
      = x₂ (ix2 p' k) :=
  concatenate_pair_apply_right _ x₁ x₂ h (ix2 p k) rfl rfl (ix2 p' k)
    (fun b hb => match b, hb with
      | ⟨0, _⟩, hb => (hb rfl).elim
      | ⟨1, _⟩, _ => rfl)
    (by show p'.val + A = p.val; omega)

/-- Two one-column matrices side by side, at column 0: the first. -/
theorem concatenate_cols2_apply_zero {R : Nat}
    (x₁ x₂ : (⟨2, ![R, 1]⟩ : Shape).Idx → α)
    (h : Shape.Concatenates [⟨2, ![R, 1]⟩, ⟨2, ![R, 1]⟩] ⟨2, ![R, 2]⟩ 1) (r : Fin R) :
    concatenate ⟨2, ![R, 2]⟩ 1 [⟨⟨2, ![R, 1]⟩, x₁⟩, ⟨⟨2, ![R, 1]⟩, x₂⟩] h (ix2 r (0 : Fin 2))
      = x₁ (ix2 r (0 : Fin 1)) :=
  concatenate_pair_apply_left _ x₁ x₂ h (ix2 r (0 : Fin 2)) rfl (ix2 r (0 : Fin 1))
    (fun b => match b with | ⟨0, _⟩ => rfl | ⟨1, _⟩ => rfl)

/-- Two one-column matrices side by side, at column 1: the second. -/
theorem concatenate_cols2_apply_one {R : Nat}
    (x₁ x₂ : (⟨2, ![R, 1]⟩ : Shape).Idx → α)
    (h : Shape.Concatenates [⟨2, ![R, 1]⟩, ⟨2, ![R, 1]⟩] ⟨2, ![R, 2]⟩ 1) (r : Fin R) :
    concatenate ⟨2, ![R, 2]⟩ 1 [⟨⟨2, ![R, 1]⟩, x₁⟩, ⟨⟨2, ![R, 1]⟩, x₂⟩] h (ix2 r (1 : Fin 2))
      = x₂ (ix2 r (0 : Fin 1)) :=
  concatenate_pair_apply_right _ x₁ x₂ h (ix2 r (1 : Fin 2)) rfl rfl (ix2 r (0 : Fin 1))
    (fun b hb => match b, hb with
      | ⟨0, _⟩, _ => rfl
      | ⟨1, _⟩, hb => (hb rfl).elim)
    rfl

/-- A scalar broadcast to any shape reads the scalar everywhere. -/
theorem broadcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A vector as a one-column matrix reads, at `(e, z)`, the vector at `e`. -/
theorem broadcastInDim_col_apply {R : Nat} (x : (⟨1, ![R]⟩ : Shape).Idx → α)
    (h : (⟨1, ![R]⟩ : Shape).BroadcastsInDim ⟨2, ![R, 1]⟩ ![0]) (e : Fin R) (z : Fin 1) :
    broadcastInDim ⟨2, ![R, 1]⟩ ![0] h x (ix2 e z) = x (ix1 e) :=
  broadcastInDim_apply _ h x (ix2 e z) (ix1 e) (fun a => match a with
    | ⟨0, _⟩ => by
      show e.val = if R = 1 then 0 else e.val
      have := e.isLt
      split <;> omega)

/-- A vector as a one-row matrix reads, at `(z, c)`, the vector at `c`. -/
theorem broadcastInDim_row_apply {n : Nat} (x : (⟨1, ![n]⟩ : Shape).Idx → α)
    (h : (⟨1, ![n]⟩ : Shape).BroadcastsInDim ⟨2, ![1, n]⟩ ![1]) (z : Fin 1) (c : Fin n) :
    broadcastInDim ⟨2, ![1, n]⟩ ![1] h x (ix2 z c) = x (ix1 c) :=
  broadcastInDim_apply _ h x (ix2 z c) (ix1 c) (fun a => match a with
    | ⟨0, _⟩ => by
      show c.val = if n = 1 then 0 else c.val
      have := c.isLt
      split <;> omega)

/-- A one-column matrix broadcast along its columns reads, at `(p, c)`, the column's entry of row `p`. -/
theorem broadcastInDim_colwide_apply {a b : Nat} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) :=
  broadcastInDim_apply _ h x (ix2 p c) (ix2 p (0 : Fin 1)) (fun ax => match ax with
    | ⟨0, _⟩ => by
      show p.val = if a = 1 then 0 else p.val
      have := p.isLt
      split <;> omega
    | ⟨1, _⟩ => by
      show 0 = if 1 = 1 then 0 else c.val
      rfl)

/-- A one-row matrix broadcast along its rows reads, at `(p, c)`, the row's entry of column `c`. -/
theorem broadcastInDim_rowwide_apply {a b : Nat} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) :=
  broadcastInDim_apply _ h x (ix2 p c) (ix2 (0 : Fin 1) c) (fun ax => match ax with
    | ⟨0, _⟩ => by
      show 0 = if 1 = 1 then 0 else p.val
      rfl
    | ⟨1, _⟩ => by
      show c.val = if b = 1 then 0 else c.val
      have := c.isLt
      split <;> omega)

/-- The slice's side condition bounds the positions read. -/
theorem slices1_lt {M R o : Nat}
    (h : (⟨1, ![M]⟩ : Shape).Slices ![o] ⟨1, ![R]⟩) (r : Fin R) : o + r.val < M := by
  have h0 : o + R ≤ M := h.2 0
  have := r.isLt
  omega

/-- A slice of a vector at `r`: the vector at `o + r`. -/
theorem slice1_apply {M R o : Nat} (x : (⟨1, ![M]⟩ : Shape).Idx → α)
    (h : (⟨1, ![M]⟩ : Shape).Slices ![o] ⟨1, ![R]⟩) (r : Fin R) :
    extractStridedSlice ⟨1, ![R]⟩ ![o] x h (ix1 r) = x (ix1 ⟨o + r.val, slices1_lt h r⟩) :=
  extractStridedSlice_apply _ x h (ix1 r) (ix1 ⟨o + r.val, slices1_lt h r⟩) (fun a => match a with
    | ⟨0, _⟩ => rfl)

end Layout

/-! ## Sums -/

section Sums
variable {φ : FTy}

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  Fintype.sum_equiv idxEquiv1 f (fun a => f (ix1 a)) (fun i => congrArg f (eq_ix1 i))

/-- The host's sum over each row of a matrix, from an initial scalar: at row `i` the initial value plus the sum of the row. -/
theorem hostReduceAdd_rows {a b : Nat} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel)
    (hr : (⟨2, ![a, b]⟩ : Shape).Reduces [1] ⟨1, ![a]⟩) (i : Fin a) :
    Host.reduceAdd (F := Ideal) x init h hu (ix1 i) = init ix0 + ∑ k : Fin b, x (ix2 i k) := by
  show Ideal.hostReduceAdd h x (init (Shape.Idx.first hu)) (ix1 i) = _
  rw [Ideal.hostReduceAdd_single h hr x _ (ix1 i), eq_ix0 (Shape.Idx.first hu)]
  exact congrArg (init ix0 + ·) (Finset.sum_congr rfl fun k _ => congrArg x (funext fun c => Fin.ext (by
    match c with
    | ⟨0, _⟩ => rfl
    | ⟨1, _⟩ => rfl)))

/-- The host's sum of a vector, from an initial scalar: the initial value plus the sum of the entries. -/
theorem hostReduceAdd_vec {n : Nat} (x : FVec Ideal ⟨1, ![n]⟩ φ) (init : (⟨0, ![]⟩ : Shape).Idx → Ideal φ)
    (h : (⟨1, ![n]⟩ : Shape).ReducesTo [0] ⟨0, ![]⟩) (hu : 0 < (⟨0, ![]⟩ : Shape).numel)
    (j : (⟨0, ![]⟩ : Shape).Idx) :
    Host.reduceAdd (F := Ideal) x init h hu j = init ix0 + ∑ i : Fin n, x (ix1 i) := by
  show Ideal.hostReduceAdd h x (init (Shape.Idx.first hu)) j = _
  rw [Ideal.hostReduceAdd_total h (fun b => b.elim0) x _ j, eq_ix0 (Shape.Idx.first hu), sum_idx1]

end Sums

/-! ## A product with a transposed matrix -/

section Dot

/-- The host's product of an `M × K` matrix with the transpose of an `N × K` matrix (both contracted along their
    second axis, no batch axis) at entry `(a, b)`: the sum over the contracted coordinate of the products of the
    entries `A (a, c)` and `B (b, c)`. -/
theorem dotGeneral_nt_apply {M N K : ℕ} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (F := Ideal) (⟨[1], [1], [0], [0], [], [], w⟩ : DotDims _ _ _) prec A B (ix2 a b)
      = ∑ c : Fin K, A (ix2 a c) * B (ix2 b c) := by
  simp only [Host.dotGeneral]
  rw [Ideal.dotGeneral_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Dot

/-! ## One element of a matrix picked by a pair of start indices -/

section Gather
variable {α : Type}

/-- The dimension numbers of a gather of single elements of a matrix: operand `[M, N]`, start indices `[R, 2]` (row, column), result `[R]`; both operand axes collapsed. -/
abbrev elemDims (M N R : Nat)
    (wf : GatherDims.WF ⟨2, ![M, N]⟩ ⟨2, ![R, 2]⟩ ⟨1, ![R]⟩ [] [0, 1] [] [0, 1] [] 1 ![1, 1]) :
    GatherDims ⟨2, ![M, N]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The gather read at `i`: the matrix at the start index `(idx[i, 0], idx[i, 1])`, each component read signed and clamped into its axis. -/
theorem gather_elem_apply {M N R w : Nat} (hM : 0 < M) (hN : 0 < N)
    (wf : GatherDims.WF ⟨2, ![M, N]⟩ ⟨2, ![R, 2]⟩ ⟨1, ![R]⟩ [] [0, 1] [] [0, 1] [] 1 ![1, 1])
    (x : (⟨2, ![M, N]⟩ : Shape).Idx → α) (idx : IVec ⟨2, ![R, 2]⟩ w) (i : Fin R) :
    Host.gather (elemDims M N R wf) x idx (ix1 i)
      = x (ix2 ⟨min (idx (ix2 i (0 : Fin 2))).toInt.toNat (M - 1), by omega⟩
               ⟨min (idx (ix2 i (1 : Fin 2))).toInt.toNat (N - 1), by omega⟩) := by
  have key : ∀ a : Fin 2, (elemDims M N R wf).start (ix1 i) idx a + (elemDims M N R wf).batchCoord (ix1 i) a
      + (elemDims M N R wf).offCoord (ix1 i) a
      = ((ix2 (⟨min (idx (ix2 i (0 : Fin 2))).toInt.toNat (M - 1), by omega⟩ : Fin M)
               (⟨min (idx (ix2 i (1 : Fin 2))).toInt.toNat (N - 1), by omega⟩ : Fin N)) a).val := by
    refine Fin.forall_fin_two.2 ⟨?_, ?_⟩
    · rw [GatherDims.batchCoord_eq_zero _ _ _ List.not_mem_nil,
        GatherDims.offCoord_eq_zero _ _ _ (fun h => ((GatherDims.mem_sKept _ _).mp h).1 (by simp))]
      simp only [Nat.add_zero]
      unfold GatherDims.start
      rw [dif_pos (show (0 : Fin 2) ∈ (elemDims M N R wf).startIndexMap by simp)]
      have hsi : (elemDims M N R wf).siIdx (ix1 i) ⟨List.idxOf (0 : Fin 2) (elemDims M N R wf).startIndexMap,
          List.idxOf_lt_length_iff.2 (by simp)⟩ = ix2 i (0 : Fin 2) := by
        funext b; refine Fin.ext ?_
        match b with
        | ⟨0, _⟩ => rfl
        | ⟨1, _⟩ => rfl
      rw [hsi]
      rfl
    · rw [GatherDims.batchCoord_eq_zero _ _ _ List.not_mem_nil,
        GatherDims.offCoord_eq_zero _ _ _ (fun h => ((GatherDims.mem_sKept _ _).mp h).1 (by simp))]
      simp only [Nat.add_zero]
      unfold GatherDims.start
      rw [dif_pos (show (1 : Fin 2) ∈ (elemDims M N R wf).startIndexMap by simp)]
      have hsi : (elemDims M N R wf).siIdx (ix1 i) ⟨List.idxOf (1 : Fin 2) (elemDims M N R wf).startIndexMap,
          List.idxOf_lt_length_iff.2 (by simp)⟩ = ix2 i (1 : Fin 2) := by
        funext b; refine Fin.ext ?_
        match b with
        | ⟨0, _⟩ => rfl
        | ⟨1, _⟩ => rfl
      rw [hsi]
      rfl
  unfold Host.gather
  exact congrArg x (funext fun a => Fin.ext (key a))

end Gather

/-! ## Words: the 32-bit word of a small natural under the signed remainder and comparisons, and a bit as a float -/

section Words

/-- The word of a natural below `2 ^ 32` reads back as the natural. -/
theorem toNat_ofNat_lt (n : Nat) (hn : n < 2 ^ 32) : (BitVec.ofNat 32 n).toNat = n := by
  rw [BitVec.toNat_ofNat, Nat.mod_eq_of_lt hn]

/-- The word of a natural below `2 ^ 31` has its sign bit clear. -/
theorem msb_ofNat_small (n : Nat) (hn : n < 2 ^ 31) : (BitVec.ofNat 32 n).msb = false := by
  rw [BitVec.msb_eq_decide, toNat_ofNat_lt n (by omega)]
  exact decide_eq_false (by omega)

/-- The host's signed remainder of the word of `p < 8192` by 4096 is the word of `p % 4096`: no division corner, both sign bits clear. -/
theorem remsi_ofNat (p : Nat) (hp : p < 8192) : IntOp.remsi .host (BitVec.ofNat 32 p) 4096#32 = BitVec.ofNat 32 (p % 4096) := by
  have hc : ¬ IntOp.SDivCorner (BitVec.ofNat 32 p) 4096#32 := by
    rintro (h | ⟨_, h⟩)
    · exact absurd h (by decide)
    · exact absurd h (by decide)
  unfold IntOp.remsi
  rw [if_neg hc]
  apply BitVec.eq_of_toNat_eq
  rw [BitVec.srem_eq]
  have h1 : (BitVec.ofNat 32 p).msb = false := msb_ofNat_small p (by omega)
  have h2 : (4096#32 : BitVec 32).msb = false := by decide
  simp only [h1, h2]
  have h3 : (4096#32 : BitVec 32).toNat = 4096 := by decide
  rw [BitVec.toNat_umod, toNat_ofNat_lt p (by omega), h3, toNat_ofNat_lt _ (by omega)]

/-- The word of a natural below `2 ^ 31` is not negative. -/
theorem slt_zero_ofNat (n : Nat) (hn : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    rw [BitVec.slt_eq_decide, BitVec.toInt_eq_toNat_of_msb (msb_ofNat_small n hn)]
    exact decide_eq_false (by simp; omega)
  rw [this]; rfl

/-- The words of two naturals below `2 ^ 32` differ exactly when the naturals do. -/
theorem cmpi_ne_ofNat (m n : Nat) (hm : m < 2 ^ 32) (hn : n < 2 ^ 32) :
    IntOp.cmpi .ne (BitVec.ofNat 32 m) (BitVec.ofNat 32 n) = if m = n then 0#1 else 1#1 := by
  show BitVec.ofBool (BitVec.ofNat 32 m != BitVec.ofNat 32 n) = _
  by_cases e : m = n
  · subst e; simp
  · have : BitVec.ofNat 32 m ≠ BitVec.ofNat 32 n := fun h => e (by
      have := congrArg BitVec.toNat h
      rwa [toNat_ofNat_lt m hm, toNat_ofNat_lt n hn] at this)
    rw [if_neg e, (bne_iff_ne.2 this : (BitVec.ofNat 32 m != BitVec.ofNat 32 n) = true)]
    rfl

/-- A bit read as an unsigned integer at the ideal values is `1` or `0`. -/
theorem uitofp_bit (b : BitVec 1) : (FloatOps.uitofp (F := Ideal) .f32 b : EReal) = if b = 1#1 then 1 else 0 := by
  show (((b.toNat : ℝ)) : EReal) = _
  rcases BitVec.eq_zero_or_eq_one b with h | h
  · subst h; simp
  · subst h; simp

end Words

end Cert.RefValLib

end
-- ==== Proof.RefValue.lean ====
/-
  The reference's composed term is the list of inner products.

  At the extended reals, entry (b, q) of the reference's result is the gather, at the q-th index pair, of batch entry
  b of the batched product of the input with itself: the matrix entry at (row, column), each component of the pair read
  as a signed integer and clamped into 0 … 63. The q-th index pair is the q-th word of the first table beside the
  q-th word of the second: the selection between a table shifted by 64 and the table itself, on a condition that is
  false everywhere, is the table. The two words are the row i and the column j of the q-th pair of the strict upper
  triangle, and the matrix entry at (i, j) is the sum over the 32 coordinates d of x (b, i, d) · x (b, j, d).
-/
import proofs.«176899_j28930899706274_2_alg».proof.Proof.RefRun
import proofs.«176899_j28930899706274_2_alg».proof.Proof.RefTables
import proofs.«176899_j28930899706274_2_alg».proof.Proof.Pairs
import proofs.«176899_j28930899706274_2_alg».proof.Proof.LibGatherPair
import proofs.«176899_j28930899706274_2_alg».proof.Proof.LibBatchDot
import proofs.«176899_j28930899706274_2_alg».proof.Proof.LibHostIx

noncomputable section

open scoped BigOperators

namespace Cert.ReferenceIdeal.HandValue

open Cert.ReferenceIdeal Cert.ReferenceIdeal.Gen Idealize.ShloMosaic Idealize.ShloMosaic.ValueIdx Cert.Pairs

/-- The row-major position of the index q of a vector is q. -/
theorem rowMajor_ix1 (q : Fin 2016) : S2016.rowMajor (ix1 q) = q := Fin.ext (Shape.rowMajor_val_one _)

/-- The first table's buffer at q holds the table's q-th word. -/
theorem rowWords_apply (q : Fin 2016) : HandRun.rowWords (ix1 q) = lit0 q := congrArg lit0 (rowMajor_ix1 q)

/-- The second table's buffer at q holds the table's q-th word. -/
theorem colWords_apply (q : Fin 2016) : HandRun.colWords (ix1 q) = lit1 q := congrArg lit1 (rowMajor_ix1 q)

/-- A column of the table of index pairs at row q is the q-th word it was made from: the condition of the selection is
    false, so the selection takes its second branch, the word itself. -/
theorem indexColumn_apply (t : IVec S2016 32) (q : Fin 2016) (z : Fin 1) :
    HandRun.indexColumn t (ix2 q z) = t (ix1 q) := by
  unfold HandRun.indexColumn
  refine (Cert.RefValLib.broadcastInDim_col_apply _ _ q z).trans ?_
  exact select_zero _ _

/-- Column 0 of the q-th index pair is the q-th word of the first table. -/
theorem indexPairs_zero (q : Fin 2016) : HandRun.indexPairs (ix2 q (0 : Fin 2)) = lit0 q := by
  unfold HandRun.indexPairs
  refine (Cert.RefValLib.concatenate_cols2_apply_zero _ _ _ q).trans ?_
  rw [indexColumn_apply, rowWords_apply]

/-- Column 1 of the q-th index pair is the q-th word of the second table. -/
theorem indexPairs_one (q : Fin 2016) : HandRun.indexPairs (ix2 q (1 : Fin 2)) = lit1 q := by
  unfold HandRun.indexPairs
  refine (Cert.RefValLib.concatenate_cols2_apply_one _ _ _ q).trans ?_
  rw [indexColumn_apply, colWords_apply]

/-- The reference's result is the list of inner products of the pairs of feature vectors, batch entry by batch entry. -/
theorem result_eq (x : FVec Ideal S8192x64x32 .f32) : HandRun.result (F := Ideal) x = Cert.Pairs.pairs x := by
  funext y
  obtain ⟨b, q, rfl⟩ : ∃ (b : Fin 8192) (q : Fin 2016), y = ix2 b q := ⟨y 0, y 1, eq_ix2 y⟩
  rw [pairs_ix2]
  unfold HandRun.result
  refine (Cert.LibGatherPair.gather_pair_apply (B := 8192) (N := 64) (P := 64) (R := 2016) (by decide) (by decide)
    gather_S8192x64x64_S2016x2_S8192x2016_0_12_n_n_12_1_819211_wf _ HandRun.indexPairs b q).trans ?_
  refine (Cert.LibBatchDot.dotGeneral_batch_apply dot_S8192x64x32_S8192x64x32_S8192x64x64_2_2_1_1_0_0_wf none x x b _ _).trans ?_
  have hr : ∀ h, (⟨min (HandRun.indexPairs (ix2 q (0 : Fin 2))).toInt.toNat (64 - 1), h⟩ : Fin 64) = rowOf q :=
    fun h => Fin.ext (by
      show min (HandRun.indexPairs (ix2 q (0 : Fin 2))).toInt.toNat (64 - 1) = triuRow q.val
      rw [indexPairs_zero]; exact HandTables.rows_eq q)
  have hc : ∀ h, (⟨min (HandRun.indexPairs (ix2 q (1 : Fin 2))).toInt.toNat (64 - 1), h⟩ : Fin 64) = colOf q :=
    fun h => Fin.ext (by
      show min (HandRun.indexPairs (ix2 q (1 : Fin 2))).toInt.toNat (64 - 1) = triuCol q.val
      rw [indexPairs_one]; exact HandTables.cols_eq q)
  rw [hr, hc]
  rfl

end Cert.ReferenceIdeal.HandValue

end
-- ==== Proof.lean ====
/-
  The certificate of the second-order feature interaction: for a batch of 8192 entries of 64 feature vectors of 32 coordinates, the
  2016 inner products ⟨x_i, x_j⟩, i < j, of each entry, listed row by row of the strict upper triangle.

  The kernel walks the batch in 32 blocks of 256 entries; on each block it forms all 64 × 64 inner products in one batched matrix
  product and copies row i's entries right of the diagonal (columns i + 1 … 63) to columns off_i … off_i + 62 − i of the output
  block, off_i = 63 + 62 + … + (64 − i). The reference forms the same inner products over the whole batch and picks the 2016 entries
  by two tables of row and column numbers. Over the extended reals both results are, at batch entry b and position p, the sum
  over the 32 coordinates d of x (b, i_p, d) · x (b, j_p, d), where (i_p, j_p) is the p-th pair of the triangle
  (`Cert.Pairs.pairs`): the kernel's by the columns its 63 copies fill (KernelBlock, KernelArray), the reference's by its tables'
  entries (RefTables, RefValue). The two sums are the same sum, term by term, so no hypothesis on the input is used.

  The three frame claims are the runs themselves with the results dropped; the idealized kernel is the kernel's own text read over
  the extended reals (no rewrite was applied), so the fourth claim is trivial; the fifth sets the two runs side by side.
-/
import proofs.«176899_j28930899706274_2_alg».proof.Defs
import proofs.«176899_j28930899706274_2_alg».proof.Proof.Gen.Kernel
import proofs.«176899_j28930899706274_2_alg».proof.Proof.Gen.KernelIdeal
import proofs.«176899_j28930899706274_2_alg».proof.Proof.Gen.ReferenceIdeal
import proofs.«176899_j28930899706274_2_alg».proof.Proof.Gen.Pre_finite_inputs
import proofs.«176899_j28930899706274_2_alg».proof.Proof.KernelFrameP
import proofs.«176899_j28930899706274_2_alg».proof.Proof.KernelArray
import proofs.«176899_j28930899706274_2_alg».proof.Proof.RefRun
import proofs.«176899_j28930899706274_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its argument as it was. -/
theorem frame_kernel : Cert.frame_Kernel :=
  fun m ρ _ => Cert.Kernel.GenP.frame m ρ

/-- The idealized kernel runs, and leaves its argument as it was. -/
theorem frame_kernel_ideal : Cert.frame_KernelIdeal :=
  fun m ρ _ => Cert.KernelIdeal.GenP.frame m ρ

/-- The reference runs, and leaves its argument as it was: its run with the result dropped. -/
theorem frame_reference : Cert.frame_ReferenceIdeal :=
  fun m ρ _ => (θ_run Cert.ReferenceIdeal.defs _ _).mono (fun _ h c => (h c).2)
    (Cert.ReferenceIdeal.HandRun.run (F := Ideal) m ρ)

/-- From memories that agree on the input, the idealized kernel's output array and the reference's result both end at the
    pairwise inner products of the input. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  rw [hagree c]
  exact Cert.ReferenceIdeal.HandValue.result_eq _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
